-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x8 : Shape := ⟨2, ![2000000, 8]⟩
abbrev S8x16 : Shape := ⟨2, ![8, 16]⟩
abbrev S16 : Shape := ⟨1, ![16]⟩
abbrev S16x16 : Shape := ⟨2, ![16, 16]⟩
abbrev S16x12 : Shape := ⟨2, ![16, 12]⟩
abbrev S12 : Shape := ⟨1, ![12]⟩
abbrev S12x8 : Shape := ⟨2, ![12, 8]⟩
abbrev S8 : Shape := ⟨1, ![8]⟩
abbrev S8x4 : Shape := ⟨2, ![8, 4]⟩
abbrev S4 : Shape := ⟨1, ![4]⟩
abbrev S4x4 : Shape := ⟨2, ![4, 4]⟩
abbrev S10x4 : Shape := ⟨2, ![10, 4]⟩
abbrev S14x1 : Shape := ⟨2, ![14, 1]⟩
abbrev S1 : Shape := ⟨1, ![1]⟩
abbrev S_ : Shape := ⟨0, ![]⟩

class Facts : Prop where
  bcast_S_S2000000x8 : S_.BroadcastsInDim S2000000x8 (![] : Fin 0 → Fin S2000000x8.rank)
  reducesTo_S2000000x8_S_d0_1 : S2000000x8.ReducesTo [0, 1] S_
  h_S_ : 0 < S_.numel
  bcast_S_S8x16 : S_.BroadcastsInDim S8x16 (![] : Fin 0 → Fin S8x16.rank)
  reducesTo_S8x16_S_d0_1 : S8x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x12 : S_.BroadcastsInDim S16x12 (![] : Fin 0 → Fin S16x12.rank)
  reducesTo_S16x12_S_d0_1 : S16x12.ReducesTo [0, 1] S_
  bcast_S_S12 : S_.BroadcastsInDim S12 (![] : Fin 0 → Fin S12.rank)
  reducesTo_S12_S_d0 : S12.ReducesTo [0] S_
  bcast_S_S12x8 : S_.BroadcastsInDim S12x8 (![] : Fin 0 → Fin S12x8.rank)
  reducesTo_S12x8_S_d0_1 : S12x8.ReducesTo [0, 1] S_
  bcast_S_S8 : S_.BroadcastsInDim S8 (![] : Fin 0 → Fin S8.rank)
  reducesTo_S8_S_d0 : S8.ReducesTo [0] S_
  bcast_S_S8x4 : S_.BroadcastsInDim S8x4 (![] : Fin 0 → Fin S8x4.rank)
  reducesTo_S8x4_S_d0_1 : S8x4.ReducesTo [0, 1] S_
  bcast_S_S4 : S_.BroadcastsInDim S4 (![] : Fin 0 → Fin S4.rank)
  reducesTo_S4_S_d0 : S4.ReducesTo [0] S_
  bcast_S_S4x4 : S_.BroadcastsInDim S4x4 (![] : Fin 0 → Fin S4x4.rank)
  reducesTo_S4x4_S_d0_1 : S4x4.ReducesTo [0, 1] S_
  bcast_S_S10x4 : S_.BroadcastsInDim S10x4 (![] : Fin 0 → Fin S10x4.rank)
  reducesTo_S10x4_S_d0_1 : S10x4.ReducesTo [0, 1] S_
  bcast_S_S14x1 : S_.BroadcastsInDim S14x1 (![] : Fin 0 → Fin S14x1.rank)
  reducesTo_S14x1_S_d0_1 : S14x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S14x1 .f32) (main_arg15 : FVec F S1 .f32) (main_v63 : IVec S_ 1) (main_v67 : IVec S_ 1) : IVec S_ 1 :=
  let main_v68 : IVec S_ 1 := andi main_v63 main_v67
  let main_v69 : FVec F S14x1 .f32 := Host.absf main_arg14
  let main_cst_26 : FVec F S_ .f32 := constant S_ .f32 0x7F800000#32
  let main_v70 : FVec F S14x1 .f32 := broadcastInDim S14x1 ![] bcast_S_S14x1 main_cst_26
  let main_v71 : IVec S14x1 1 := cmpf .olt main_v69 main_v70
  let main_c_27 : IVec S_ 1 := constantI S_ 1 1#1
  let main_v72 : IVec S_ 1 := (fun x v => Host.reduce IntOp.andi x v reducesTo_S14x1_S_d0_1 h_S_) main_v71 main_c_27
  let main_v73 : IVec S_ 1 := andi main_v68 main_v72
  let main_v74 : FVec F S1 .f32 := Host.absf main_arg15
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg11 : FVec F S4x4 .f32) (main_arg12 : FVec F S4 .f32) (main_arg13 : FVec F S10x4 .f32) (main_arg14 : FVec F S14x1 .f32) (main_arg15 : FVec F S1 .f32) (main_v48 : IVec S_ 1) (main_v49 : FVec F S4 .f32) (main_v50 : FVec F S4 .f32) : IVec S_ 1 :=
  let main_v51 : IVec S4 1 := cmpf .olt main_v49 main_v50
  let main_c_19 : IVec S_ 1 := constantI S_ 1 1#1
  let main_v52 : IVec S_ 1 := (fun x v => Host.reduce IntOp.andi x v reducesTo_S4_S_d0 h_S_) main_v51 main_c_19
  let main_v53 : IVec S_ 1 := andi main_v48 main_v52
  let main_v54 : FVec F S4x4 .f32 := Host.absf main_arg11
  let main_cst_20 : FVec F S_ .f32 := constant S_ .f32 0x7F800000#32
  let main_v55 : FVec F S4x4 .f32 := broadcastInDim S4x4 ![] bcast_S_S4x4 main_cst_20
  let main_v56 : IVec S4x4 1 := cmpf .olt main_v54 main_v55
  let main_c_21 : IVec S_ 1 := constantI S_ 1 1#1
  let main_v57 : IVec S_ 1 := (fun x v => Host.reduce IntOp.andi x v reducesTo_S4x4_S_d0_1 h_S_) main_v56 main_c_21
  let main_v58 : IVec S_ 1 := andi main_v53 main_v57
  let main_v59 : FVec F S4 .f32 := Host.absf main_arg12
  let main_cst_22 : FVec F S_ .f32 := constant S_ .f32 0x7F800000#32
  let main_v60 : FVec F S4 .f32 := broadcastInDim S4 ![] bcast_S_S4 main_cst_22
  let main_v61 : IVec S4 1 := cmpf .olt main_v59 main_v60
  let main_c_23 : IVec S_ 1 := constantI S_ 1 1#1
  let main_v62 : IVec S_ 1 := (fun x v => Host.reduce IntOp.andi x v reducesTo_S4_S_d0 h_S_) main_v61 main_c_23
  let main_v63 : IVec S_ 1 := andi main_v58 main_v62
  let main_v64 : FVec F S10x4 .f32 := Host.absf main_arg13
  let main_cst_24 : FVec F S_ .f32 := constant S_ .f32 0x7F800000#32
  let main_v65 : FVec F S10x4 .f32 := broadcastInDim S10x4 ![] bcast_S_S10x4 main_cst_24
  let main_v66 : IVec S10x4 1 := cmpf .olt main_v64 main_v65
  let main_c_25 : IVec S_ 1 := constantI S_ 1 1#1
  let main_v67 : IVec S_ 1 := (fun x v => Host.reduce IntOp.andi x v reducesTo_S10x4_S_d0_1 h_S_) main_v66 main_c_25
  fn_part4 (F := F) main_arg14 main_arg15 main_v63 main_v67

def fn_part2 {F : FTy → Type} [FloatOps F] (main_arg7 : FVec F S12x8 .f32) (main_arg8 : FVec F S8 .f32) (main_arg9 : FVec F S8x4 .f32) (main_arg10 : FVec F S4 .f32) (main_arg11 : FVec F S4x4 .f32) (main_arg12 : FVec F S4 .f32) (main_arg13 : FVec F S10x4 .f32) (main_arg14 : FVec F S14x1 .f32) (main_arg15 : FVec F S1 .f32) (main_v33 : IVec S_ 1) : IVec S_ 1 :=
  let main_v34 : FVec F S12x8 .f32 := Host.absf main_arg7
  let main_cst_12 : FVec F S_ .f32 := constant S_ .f32 0x7F800000#32
  let main_v35 : FVec F S12x8 .f32 := broadcastInDim S12x8 ![] bcast_S_S12x8 main_cst_12
  let main_v36 : IVec S12x8 1 := cmpf .olt main_v34 main_v35
  let main_c_13 : IVec S_ 1 := constantI S_ 1 1#1
  let main_v37 : IVec S_ 1 := (fun x v => Host.reduce IntOp.andi x v reducesTo_S12x8_S_d0_1 h_S_) main_v36 main_c_13
  let main_v38 : IVec S_ 1 := andi main_v33 main_v37
  let main_v39 : FVec F S8 .f32 := Host.absf main_arg8
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_v44 : FVec F S8x4 .f32 := Host.absf main_arg9
  let main_cst_16 : FVec F S_ .f32 := constant S_ .f32 0x7F800000#32
  let main_v45 : FVec F S8x4 .f32 := broadcastInDim S8x4 ![] bcast_S_S8x4 main_cst_16
  let main_v46 : IVec S8x4 1 := cmpf .olt main_v44 main_v45
  let main_c_17 : IVec S_ 1 := constantI S_ 1 1#1
  let main_v47 : IVec S_ 1 := (fun x v => Host.reduce IntOp.andi x v reducesTo_S8x4_S_d0_1 h_S_) main_v46 main_c_17
  let main_v48 : IVec S_ 1 := andi main_v43 main_v47
  let main_v49 : FVec F S4 .f32 := Host.absf main_arg10
  let main_cst_18 : FVec F S_ .f32 := constant S_ .f32 0x7F800000#32
  let main_v50 : FVec F S4 .f32 := broadcastInDim S4 ![] bcast_S_S4 main_cst_18
  fn_part3 (F := F) main_arg11 main_arg12 main_arg13 main_arg14 main_arg15 main_v48 main_v49 main_v50

def fn_part1 {F : FTy → Type} [FloatOps F] (main_arg4 : FVec F S16 .f32) (main_arg5 : FVec F S16x12 .f32) (main_arg6 : FVec F S12 .f32) (main_arg7 : FVec F S12x8 .f32) (main_arg8 : FVec F S8 .f32) (main_arg9 : FVec F S8x4 .f32) (main_arg10 : FVec F S4 .f32) (main_arg11 : FVec F S4x4 .f32) (main_arg12 : FVec F S4 .f32) (main_arg13 : FVec F S10x4 .f32) (main_arg14 : FVec F S14x1 .f32) (main_arg15 : FVec F S1 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x12 .f32 := Host.absf main_arg5
  let main_cst_8 : FVec F S_ .f32 := constant S_ .f32 0x7F800000#32
  let main_v25 : FVec F S16x12 .f32 := broadcastInDim S16x12 ![] bcast_S_S16x12 main_cst_8
  let main_v26 : IVec S16x12 1 := cmpf .olt main_v24 main_v25
  let main_c_9 : IVec S_ 1 := constantI S_ 1 1#1
  let main_v27 : IVec S_ 1 := (fun x v => Host.reduce IntOp.andi x v reducesTo_S16x12_S_d0_1 h_S_) main_v26 main_c_9
  let main_v28 : IVec S_ 1 := andi main_v23 main_v27
  let main_v29 : FVec F S12 .f32 := Host.absf main_arg6
  let main_cst_10 : FVec F S_ .f32 := constant S_ .f32 0x7F800000#32
  let main_v30 : FVec F S12 .f32 := broadcastInDim S12 ![] bcast_S_S12 main_cst_10
  let main_v31 : IVec S12 1 := cmpf .olt main_v29 main_v30
  let main_c_11 : IVec S_ 1 := constantI S_ 1 1#1
  let main_v32 : IVec S_ 1 := (fun x v => Host.reduce IntOp.andi x v reducesTo_S12_S_d0 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S2000000x8 .f32) (main_arg1 : FVec F S8x16 .f32) (main_arg2 : FVec F S16 .f32) (main_arg3 : FVec F S16x16 .f32) (main_arg4 : FVec F S16 .f32) (main_arg5 : FVec F S16x12 .f32) (main_arg6 : FVec F S12 .f32) (main_arg7 : FVec F S12x8 .f32) (main_arg8 : FVec F S8 .f32) (main_arg9 : FVec F S8x4 .f32) (main_arg10 : FVec F S4 .f32) (main_arg11 : FVec F S4x4 .f32) (main_arg12 : FVec F S4 .f32) (main_arg13 : FVec F S10x4 .f32) (main_arg14 : FVec F S14x1 .f32) (main_arg15 : FVec F S1 .f32) : IVec S_ 1 :=
  let main_v0 : FVec F S2000000x8 .f32 := Host.absf main_arg0
  let main_cst : FVec F S_ .f32 := constant S_ .f32 0x7F800000#32
  let main_v1 : FVec F S2000000x8 .f32 := broadcastInDim S2000000x8 ![] bcast_S_S2000000x8 main_cst
  let main_v2 : IVec S2000000x8 1 := cmpf .olt main_v0 main_v1
  let main_c : IVec S_ 1 := constantI S_ 1 1#1
  let main_v3 : IVec S_ 1 := (fun x v => Host.reduce IntOp.andi x v reducesTo_S2000000x8_S_d0_1 h_S_) main_v2 main_c
  let main_v4 : FVec F S8x16 .f32 := Host.absf main_arg1
  let main_cst_0 : FVec F S_ .f32 := constant S_ .f32 0x7F800000#32
  let main_v5 : FVec F S8x16 .f32 := broadcastInDim S8x16 ![] bcast_S_S8x16 main_cst_0
  let main_v6 : IVec S8x16 1 := cmpf .olt main_v4 main_v5
  let main_c_1 : IVec S_ 1 := constantI S_ 1 1#1
  let main_v7 : IVec S_ 1 := (fun x v => Host.reduce IntOp.andi x v reducesTo_S8x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg3
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S2000000x8 : Shape := ⟨2, ![2000000, 8]⟩
abbrev S8x16 : Shape := ⟨2, ![8, 16]⟩
abbrev S16 : Shape := ⟨1, ![16]⟩
abbrev S16x16 : Shape := ⟨2, ![16, 16]⟩
abbrev S16x12 : Shape := ⟨2, ![16, 12]⟩
abbrev S12 : Shape := ⟨1, ![12]⟩
abbrev S12x8 : Shape := ⟨2, ![12, 8]⟩
abbrev S8 : Shape := ⟨1, ![8]⟩
abbrev S8x4 : Shape := ⟨2, ![8, 4]⟩
abbrev S4 : Shape := ⟨1, ![4]⟩
abbrev S4x4 : Shape := ⟨2, ![4, 4]⟩
abbrev S10x4 : Shape := ⟨2, ![10, 4]⟩
abbrev S14x1 : Shape := ⟨2, ![14, 1]⟩
abbrev S1 : Shape := ⟨1, ![1]⟩
abbrev S1x16 : Shape := ⟨2, ![1, 16]⟩
abbrev S1x12 : Shape := ⟨2, ![1, 12]⟩
abbrev S1x8 : Shape := ⟨2, ![1, 8]⟩
abbrev S1x4 : Shape := ⟨2, ![1, 4]⟩
abbrev S1x1 : Shape := ⟨2, ![1, 1]⟩
abbrev S4x10 : Shape := ⟨2, ![4, 10]⟩
abbrev S_ : Shape := ⟨0, ![]⟩
abbrev S10 : Shape := ⟨1, ![10]⟩
abbrev S1x10 : Shape := ⟨2, ![1, 10]⟩
abbrev S4x1 : Shape := ⟨2, ![4, 1]⟩
abbrev S10x1 : Shape := ⟨2, ![10, 1]⟩
abbrev S2000000x1 : Shape := ⟨2, ![2000000, 1]⟩
abbrev S4000x8 : Shape := ⟨2, ![4000, 8]⟩
abbrev S4000x1 : Shape := ⟨2, ![4000, 1]⟩
abbrev S4000x16 : Shape := ⟨2, ![4000, 16]⟩
abbrev S4000x12 : Shape := ⟨2, ![4000, 12]⟩
abbrev S4000x4 : Shape := ⟨2, ![4000, 4]⟩
abbrev S4000x10 : Shape := ⟨2, ![4000, 10]⟩
abbrev S4000 : Shape := ⟨1, ![4000]⟩

abbrev nBuf : Space → Nat
  | .hbm => 31
  | .vmem => 21
  | .smem => 0
  | _ => 0

abbrev bufTy : (tb : Table) → Fin (tcTables nBuf tb) → BufTy
  | .hbm, ⟨0, _⟩ => ⟨S2000000x8, .f32⟩
  | .hbm, ⟨1, _⟩ => ⟨S8x16, .f32⟩
  | .hbm, ⟨2, _⟩ => ⟨S16, .f32⟩
  | .hbm, ⟨3, _⟩ => ⟨S16x16, .f32⟩
  | .hbm, ⟨4, _⟩ => ⟨S16, .f32⟩
  | .hbm, ⟨5, _⟩ => ⟨S16x12, .f32⟩
  | .hbm, ⟨6, _⟩ => ⟨S12, .f32⟩
  | .hbm, ⟨7, _⟩ => ⟨S12x8, .f32⟩
  | .hbm, ⟨8, _⟩ => ⟨S8, .f32⟩
  | .hbm, ⟨9, _⟩ => ⟨S8x4, .f32⟩
  | .hbm, ⟨10, _⟩ => ⟨S4, .f32⟩
  | .hbm, ⟨11, _⟩ => ⟨S4x4, .f32⟩
  | .hbm, ⟨12, _⟩ => ⟨S4, .f32⟩
  | .hbm, ⟨13, _⟩ => ⟨S10x4, .f32⟩
  | .hbm, ⟨14, _⟩ => ⟨S14x1, .f32⟩
  | .hbm, ⟨15, _⟩ => ⟨S1, .f32⟩
  | .hbm, ⟨16, _⟩ => ⟨S1x16, .f32⟩
  | .hbm, ⟨17, _⟩ => ⟨S1x16, .f32⟩
  | .hbm, ⟨18, _⟩ => ⟨S1x12, .f32⟩
  | .hbm, ⟨19, _⟩ => ⟨S1x8, .f32⟩
  | .hbm, ⟨20, _⟩ => ⟨S1x4, .f32⟩
  | .hbm, ⟨21, _⟩ => ⟨S1x4, .f32⟩
  | .hbm, ⟨22, _⟩ => ⟨S1x1, .f32⟩
  | .hbm, ⟨23, _⟩ => ⟨S4x10, .f32⟩
  | .hbm, ⟨24, _⟩ => ⟨S10x4, .f32⟩
  | .hbm, ⟨25, _⟩ => ⟨S_, .f32⟩
  | .hbm, ⟨26, _⟩ => ⟨S10, .f32⟩
  | .hbm, ⟨27, _⟩ => ⟨S1x10, .f32⟩
  | .hbm, ⟨28, _⟩ => ⟨S4x1, .f32⟩
  | .hbm, ⟨29, _⟩ => ⟨S10x1, .f32⟩
  | .hbm, ⟨30, _⟩ => ⟨S2000000x1, .f32⟩
  | .local _ .vmem, ⟨0, _⟩ => ⟨S4000x8, .f32⟩
  | .local _ .vmem, ⟨1, _⟩ => ⟨S4000x8, .f32⟩
  | .local _ .vmem, ⟨2, _⟩ => ⟨S8x16, .f32⟩
  | .local _ .vmem, ⟨3, _⟩ => ⟨S1x16, .f32⟩
  | .local _ .vmem, ⟨4, _⟩ => ⟨S16x16, .f32⟩
  | .local _ .vmem, ⟨5, _⟩ => ⟨S1x16, .f32⟩
  | .local _ .vmem, ⟨6, _⟩ => ⟨S16x12, .f32⟩
  | .local _ .vmem, ⟨7, _⟩ => ⟨S1x12, .f32⟩
  | .local _ .vmem, ⟨8, _⟩ => ⟨S12x8, .f32⟩
  | .local _ .vmem, ⟨9, _⟩ => ⟨S1x8, .f32⟩
  | .local _ .vmem, ⟨10, _⟩ => ⟨S8x4, .f32⟩
  | .local _ .vmem, ⟨11, _⟩ => ⟨S1x4, .f32⟩
  | .local _ .vmem, ⟨12, _⟩ => ⟨S4x4, .f32⟩
  | .local _ .vmem, ⟨13, _⟩ => ⟨S1x4, .f32⟩
  | .local _ .vmem, ⟨14, _⟩ => ⟨S4x10, .f32⟩
  | .local _ .vmem, ⟨15, _⟩ => ⟨S1x10, .f32⟩
  | .local _ .vmem, ⟨16, _⟩ => ⟨S4x1, .f32⟩
  | .local _ .vmem, ⟨17, _⟩ => ⟨S10x1, .f32⟩
  | .local _ .vmem, ⟨18, _⟩ => ⟨S1x1, .f32⟩
  | .local _ .vmem, ⟨19, _⟩ => ⟨S4000x1, .f32⟩
  | .local _ .vmem, ⟨20, _⟩ => ⟨S4000x1, .f32⟩
  | _, _ => ⟨S2000000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg18_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem18_1 : DmaSem sig := 20

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x12 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x12 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S12x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x4 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x4 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x10 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x10 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S10x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S4000x1 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

class Facts₀ : Prop where
  shapeCasts_S16_S1x16 : S16.ShapeCasts S1x16
  shapeCasts_S12_S1x12 : S12.ShapeCasts S1x12
  shapeCasts_S8_S1x8 : S8.ShapeCasts S1x8
  shapeCasts_S4_S1x4 : S4.ShapeCasts S1x4
  shapeCasts_S1_S1x1 : S1.ShapeCasts S1x1
  transposes_S10x4_S4x10_1_0 : S10x4.Transposes [1, 0] S4x10
  reducesTo_S10x4_S10_d1 : S10x4.ReducesTo [1] S10
  h_S_ : 0 < S_.numel
  shapeCasts_S10_S1x10 : S10.ShapeCasts S1x10
  slices_S14x1_S4x1_0_0 : S14x1.Slices ![0, 0] S4x1
  slices_S14x1_S10x1_4_0 : S14x1.Slices ![4, 0] S10x1
  inb_S4000x8_S4000x8_0_0 : ∀ a, (![0, 0] : Fin 2 → Nat) a + S4000x8.size a ≤ S4000x8.size a
  h_S4000x8 : 0 < S4000x8.numel
  inb_S8x16_S8x16_0_0 : ∀ a, (![0, 0] : Fin 2 → Nat) a + S8x16.size a ≤ S8x16.size a
  h_S8x16 : 0 < S8x16.numel
  bitsLt_bf16_f32 : FTy.bits .bf16 < FTy.bits .f32
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4000x16 : S1x16.Broadcasts S4000x16
  inb_S16x16_S16x16_0_0 : ∀ a, (![0, 0] : Fin 2 → Nat) a + S16x16.size a ≤ S16x16.size a
  h_S16x16 : 0 < S16x16.numel
  inb_S16x12_S16x12_0_0 : ∀ a, (![0, 0] : Fin 2 → Nat) a + S16x12.size a ≤ S16x12.size a
  h_S16x12 : 0 < S16x12.numel
  inb_S1x12_S1x12_0_0 : ∀ a, (![0, 0] : Fin 2 → Nat) a + S1x12.size a ≤ S1x12.size a
  h_S1x12 : 0 < S1x12.numel
  shapeCasts_S1x12_S1x12 : S1x12.ShapeCasts S1x12
  broadcasts_S1x12_S4000x12 : S1x12.Broadcasts S4000x12
  inb_S12x8_S12x8_0_0 : ∀ a, (![0, 0] : Fin 2 → Nat) a + S12x8.size a ≤ S12x8.size a
  h_S12x8 : 0 < S12x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S4000x8 : S1x8.Broadcasts S4000x8
  inb_S8x4_S8x4_0_0 : ∀ a, (![0, 0] : Fin 2 → Nat) a + S8x4.size a ≤ S8x4.size a
  h_S8x4 : 0 < S8x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S4000x4 : S1x4.Broadcasts S4000x4
  inb_S4x4_S4x4_0_0 : ∀ a, (![0, 0] : Fin 2 → Nat) a + S4x4.size a ≤ S4x4.size a
  h_S4x4 : 0 < S4x4.numel
  inb_S4x10_S4x10_0_0 : ∀ a, (![0, 0] : Fin 2 → Nat) a + S4x10.size a ≤ S4x10.size a
  h_S4x10 : 0 < S4x10.numel
  shapeCasts_S4x10_S4x10 : S4x10.ShapeCasts S4x10
  reduces_S4000x4_S4000 : S4000x4.Reduces [1] S4000
  shapeCasts_S4000_S4000x1 : S4000.ShapeCasts S4000x1
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S4000x1_S4000x10 : S4000x1.Broadcasts S4000x10
  broadcasts_S1x10_S4000x10 : S1x10.Broadcasts S4000x10
  inb_S4x1_S4x1_0_0 : ∀ a, (![0, 0] : Fin 2 → Nat) a + S4x1.size a ≤ S4x1.size a
  h_S4x1 : 0 < S4x1.numel
  shapeCasts_S4x1_S4x1 : S4x1.ShapeCasts S4x1
  inb_S10x1_S10x1_0_0 : ∀ a, (![0, 0] : Fin 2 → Nat) a + S10x1.size a ≤ S10x1.size a
  h_S10x1 : 0 < S10x1.numel
  shapeCasts_S10x1_S10x1 : S10x1.ShapeCasts S10x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  dot_S4000x8_S8x16_S4000x16_1_0_0_1_n_n_wf : DotDims.WF S4000x8 S8x16 S4000x16 [1] [0] [0] [1] [] []
  dot_S4000x16_S16x16_S4000x16_1_0_0_1_n_n_wf : DotDims.WF S4000x16 S16x16 S4000x16 [1] [0] [0] [1] [] []
  dot_S4000x16_S16x12_S4000x12_1_0_0_1_n_n_wf : DotDims.WF S4000x16 S16x12 S4000x12 [1] [0] [0] [1] [] []
  dot_S4000x12_S12x8_S4000x8_1_0_0_1_n_n_wf : DotDims.WF S4000x12 S12x8 S4000x8 [1] [0] [0] [1] [] []
  dot_S4000x8_S8x4_S4000x4_1_0_0_1_n_n_wf : DotDims.WF S4000x8 S8x4 S4000x4 [1] [0] [0] [1] [] []
  dot_S4000x4_S4x4_S4000x4_1_0_0_1_n_n_wf : DotDims.WF S4000x4 S4x4 S4000x4 [1] [0] [0] [1] [] []
  dot_S4000x4_S4x10_S4000x10_1_0_0_1_n_n_wf : DotDims.WF S4000x4 S4x10 S4000x10 [1] [0] [0] [1] [] []
  dot_S4000x4_S4x1_S4000x1_1_0_0_1_n_n_wf : DotDims.WF S4000x4 S4x1 S4000x1 [1] [0] [0] [1] [] []
  dot_S4000x10_S10x1_S4000x1_1_0_0_1_n_n_wf : DotDims.WF S4000x10 S10x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x8.size a ≤ S2000000x8.size a
  hwx0_0 : ∀ i : grid0.Coords, EltTy.bits .f32 = 32 ∨ (Rect.block (s := S2000000x8) S4000x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x16.size a ≤ S8x16.size a
  hwx0_1 : ∀ i : grid0.Coords, EltTy.bits .f32 = 32 ∨ (Rect.block (s := S8x16) S8x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x16.size a ≤ S16x16.size a
  hwx0_3 : ∀ i : grid0.Coords, EltTy.bits .f32 = 32 ∨ (Rect.block (s := S16x16) S16x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x12.size a ≤ S16x12.size a
  hwx0_5 : ∀ i : grid0.Coords, EltTy.bits .f32 = 32 ∨ (Rect.block (s := S16x12) S16x12.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x12.size a ≤ S1x12.size a
  hwx0_6 : ∀ i : grid0.Coords, EltTy.bits .f32 = 32 ∨ (Rect.block (s := S1x12) S1x12.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S12x8.size a ≤ S12x8.size a
  hwx0_7 : ∀ i : grid0.Coords, EltTy.bits .f32 = 32 ∨ (Rect.block (s := S12x8) S12x8.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x8.size a ≤ S1x8.size a
  hwx0_8 : ∀ i : grid0.Coords, EltTy.bits .f32 = 32 ∨ (Rect.block (s := S1x8) S1x8.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S8x4.size a ≤ S8x4.size a
  hwx0_9 : ∀ i : grid0.Coords, EltTy.bits .f32 = 32 ∨ (Rect.block (s := S8x4) S8x4.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x4.size a ≤ S1x4.size a
  hwx0_10 : ∀ i : grid0.Coords, EltTy.bits .f32 = 32 ∨ (Rect.block (s := S1x4) S1x4.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S4x4.size a ≤ S4x4.size a
  hwx0_11 : ∀ i : grid0.Coords, EltTy.bits .f32 = 32 ∨ (Rect.block (s := S4x4) S4x4.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x4.size a ≤ S1x4.size a
  hwx0_12 : ∀ i : grid0.Coords, EltTy.bits .f32 = 32 ∨ (Rect.block (s := S1x4) S1x4.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S4x10.size a ≤ S4x10.size a
  hwx0_13 : ∀ i : grid0.Coords, EltTy.bits .f32 = 32 ∨ (Rect.block (s := S4x10) S4x10.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x10.size a ≤ S1x10.size a
  hwx0_14 : ∀ i : grid0.Coords, EltTy.bits .f32 = 32 ∨ (Rect.block (s := S1x10) S1x10.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S4x1.size a ≤ S4x1.size a
  hwx0_15 : ∀ i : grid0.Coords, EltTy.bits .f32 = 32 ∨ (Rect.block (s := S4x1) S4x1.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S10x1.size a ≤ S10x1.size a
  hwx0_16 : ∀ i : grid0.Coords, EltTy.bits .f32 = 32 ∨ (Rect.block (s := S10x1) S10x1.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x1.size a ≤ S1x1.size a
  hwx0_17 : ∀ i : grid0.Coords, EltTy.bits .f32 = 32 ∨ (Rect.block (s := S1x1) S1x1.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S4000x1.size a ≤ S2000000x1.size a
  hwx0_18 : ∀ i : grid0.Coords, EltTy.bits .f32 = 32 ∨ (Rect.block (s := S2000000x1) S4000x1.size (cc0_transform_18 i) (hinb0_18 i)).WholeWords (EltTy.packing .f32)

variable [Facts₀]

def dot_S4000x8_S8x16_S4000x16_1_0_0_1_n_n : DotDims S4000x8 S8x16 S4000x16 where
  lhsContracting := [1]
  rhsContracting := [0]
  lhsNonContracting := [0]
  rhsNonContracting := [1]
  lhsBatch := []
  rhsBatch := []
  wf := dot_S4000x8_S8x16_S4000x16_1_0_0_1_n_n_wf
def dot_S4000x16_S16x16_S4000x16_1_0_0_1_n_n : DotDims S4000x16 S16x16 S4000x16 where
  lhsContracting := [1]
  rhsContracting := [0]
  lhsNonContracting := [0]
  rhsNonContracting := [1]
  lhsBatch := []
  rhsBatch := []
  wf := dot_S4000x16_S16x16_S4000x16_1_0_0_1_n_n_wf
def dot_S4000x16_S16x12_S4000x12_1_0_0_1_n_n : DotDims S4000x16 S16x12 S4000x12 where
  lhsContracting := [1]
  rhsContracting := [0]
  lhsNonContracting := [0]
  rhsNonContracting := [1]
  lhsBatch := []
  rhsBatch := []
  wf := dot_S4000x16_S16x12_S4000x12_1_0_0_1_n_n_wf
def dot_S4000x12_S12x8_S4000x8_1_0_0_1_n_n : DotDims S4000x12 S12x8 S4000x8 where
  lhsContracting := [1]
  rhsContracting := [0]
  lhsNonContracting := [0]
  rhsNonContracting := [1]
  lhsBatch := []
  rhsBatch := []
  wf := dot_S4000x12_S12x8_S4000x8_1_0_0_1_n_n_wf
def dot_S4000x8_S8x4_S4000x4_1_0_0_1_n_n : DotDims S4000x8 S8x4 S4000x4 where
  lhsContracting := [1]
  rhsContracting := [0]
  lhsNonContracting := [0]
  rhsNonContracting := [1]
  lhsBatch := []
  rhsBatch := []
  wf := dot_S4000x8_S8x4_S4000x4_1_0_0_1_n_n_wf
def dot_S4000x4_S4x4_S4000x4_1_0_0_1_n_n : DotDims S4000x4 S4x4 S4000x4 where
  lhsContracting := [1]
  rhsContracting := [0]
  lhsNonContracting := [0]
  rhsNonContracting := [1]
  lhsBatch := []
  rhsBatch := []
  wf := dot_S4000x4_S4x4_S4000x4_1_0_0_1_n_n_wf
def dot_S4000x4_S4x10_S4000x10_1_0_0_1_n_n : DotDims S4000x4 S4x10 S4000x10 where
  lhsContracting := [1]
  rhsContracting := [0]
  lhsNonContracting := [0]
  rhsNonContracting := [1]
  lhsBatch := []
  rhsBatch := []
  wf := dot_S4000x4_S4x10_S4000x10_1_0_0_1_n_n_wf
def dot_S4000x4_S4x1_S4000x1_1_0_0_1_n_n : DotDims S4000x4 S4x1 S4000x1 where
  lhsContracting := [1]
  rhsContracting := [0]
  lhsNonContracting := [0]
  rhsNonContracting := [1]
  lhsBatch := []
  rhsBatch := []
  wf := dot_S4000x4_S4x1_S4000x1_1_0_0_1_n_n_wf
def dot_S4000x10_S10x1_S4000x1_1_0_0_1_n_n : DotDims S4000x10 S10x1 S4000x1 where
  lhsContracting := [1]
  rhsContracting := [0]
  lhsNonContracting := [0]
  rhsNonContracting := [1]
  lhsBatch := []
  rhsBatch := []
  wf := dot_S4000x10_S10x1_S4000x1_1_0_0_1_n_n_wf

abbrev win0_0 : Pipeline.Window sig grid0 :=
  Pipeline.Window.ofSpec (Memref.whole main_arg0) S4000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S16x12.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x12.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S12x8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x8.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S8x4.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S1x4.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S4x4.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v5) S1x4.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v7) S4x10.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v10) S1x10.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v11) S4x1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v12) S10x1.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v6) S1x1.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v13) S4000x1.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S2000000x8 : Shape := ⟨2, ![2000000, 8]⟩
abbrev S8x16 : Shape := ⟨2, ![8, 16]⟩
abbrev S16 : Shape := ⟨1, ![16]⟩
abbrev S16x16 : Shape := ⟨2, ![16, 16]⟩
abbrev S16x12 : Shape := ⟨2, ![16, 12]⟩
abbrev S12 : Shape := ⟨1, ![12]⟩
abbrev S12x8 : Shape := ⟨2, ![12, 8]⟩
abbrev S8 : Shape := ⟨1, ![8]⟩
abbrev S8x4 : Shape := ⟨2, ![8, 4]⟩
abbrev S4 : Shape := ⟨1, ![4]⟩
abbrev S4x4 : Shape := ⟨2, ![4, 4]⟩
abbrev S10x4 : Shape := ⟨2, ![10, 4]⟩
abbrev S14x1 : Shape := ⟨2, ![14, 1]⟩
abbrev S1 : Shape := ⟨1, ![1]⟩
abbrev S2000000x16 : Shape := ⟨2, ![2000000, 16]⟩
abbrev S1x16 : Shape := ⟨2, ![1, 16]⟩
abbrev S2000000x12 : Shape := ⟨2, ![2000000, 12]⟩
abbrev S1x12 : Shape := ⟨2, ![1, 12]⟩
abbrev S1x8 : Shape := ⟨2, ![1, 8]⟩
abbrev S2000000x4 : Shape := ⟨2, ![2000000, 4]⟩
abbrev S1x4 : Shape := ⟨2, ![1, 4]⟩
abbrev S_ : Shape := ⟨0, ![]⟩
abbrev S2000000 : Shape := ⟨1, ![2000000]⟩
abbrev S2000000x1 : Shape := ⟨2, ![2000000, 1]⟩
abbrev S10 : Shape := ⟨1, ![10]⟩
abbrev S1x10 : Shape := ⟨2, ![1, 10]⟩
abbrev S2000000x10 : Shape := ⟨2, ![2000000, 10]⟩
abbrev S4x10 : Shape := ⟨2, ![4, 10]⟩
abbrev S2000000x14 : Shape := ⟨2, ![2000000, 14]⟩
abbrev S1x1 : Shape := ⟨2, ![1, 1]⟩

abbrev nBuf : Space → Nat
  | .hbm => 80
  | .vmem => 0
  | .smem => 0
  | _ => 0

abbrev bufTy : (tb : Table) → Fin (tcTables nBuf tb) → BufTy
  | .hbm, ⟨0, _⟩ => ⟨S2000000x8, .f32⟩
  | .hbm, ⟨1, _⟩ => ⟨S8x16, .f32⟩
  | .hbm, ⟨2, _⟩ => ⟨S16, .f32⟩
  | .hbm, ⟨3, _⟩ => ⟨S16x16, .f32⟩
  | .hbm, ⟨4, _⟩ => ⟨S16, .f32⟩
  | .hbm, ⟨5, _⟩ => ⟨S16x12, .f32⟩
  | .hbm, ⟨6, _⟩ => ⟨S12, .f32⟩
  | .hbm, ⟨7, _⟩ => ⟨S12x8, .f32⟩
  | .hbm, ⟨8, _⟩ => ⟨S8, .f32⟩
  | .hbm, ⟨9, _⟩ => ⟨S8x4, .f32⟩
  | .hbm, ⟨10, _⟩ => ⟨S4, .f32⟩
  | .hbm, ⟨11, _⟩ => ⟨S4x4, .f32⟩
  | .hbm, ⟨12, _⟩ => ⟨S4, .f32⟩
  | .hbm, ⟨13, _⟩ => ⟨S10x4, .f32⟩
  | .hbm, ⟨14, _⟩ => ⟨S14x1, .f32⟩
  | .hbm, ⟨15, _⟩ => ⟨S1, .f32⟩
  | .hbm, ⟨16, _⟩ => ⟨S2000000x16, .f32⟩
  | .hbm, ⟨17, _⟩ => ⟨S1x16, .f32⟩
  | .hbm, ⟨18, _⟩ => ⟨S2000000x16, .f32⟩
  | .hbm, ⟨19, _⟩ => ⟨S2000000x16, .f32⟩
  | .hbm, ⟨20, _⟩ => ⟨S2000000x16, .f32⟩
  | .hbm, ⟨21, _⟩ => ⟨S2000000x16, .f32⟩
  | .hbm, ⟨22, _⟩ => ⟨S1x16, .f32⟩
  | .hbm, ⟨23, _⟩ => ⟨S2000000x16, .f32⟩
  | .hbm, ⟨24, _⟩ => ⟨S2000000x16, .f32⟩
  | .hbm, ⟨25, _⟩ => ⟨S2000000x16, .f32⟩
  | .hbm, ⟨26, _⟩ => ⟨S2000000x12, .f32⟩
  | .hbm, ⟨27, _⟩ => ⟨S1x12, .f32⟩
  | .hbm, ⟨28, _⟩ => ⟨S2000000x12, .f32⟩
  | .hbm, ⟨29, _⟩ => ⟨S2000000x12, .f32⟩
  | .hbm, ⟨30, _⟩ => ⟨S2000000x12, .f32⟩
  | .hbm, ⟨31, _⟩ => ⟨S2000000x8, .f32⟩
  | .hbm, ⟨32, _⟩ => ⟨S1x8, .f32⟩
  | .hbm, ⟨33, _⟩ => ⟨S2000000x8, .f32⟩
  | .hbm, ⟨34, _⟩ => ⟨S2000000x8, .f32⟩
  | .hbm, ⟨35, _⟩ => ⟨S2000000x8, .f32⟩
  | .hbm, ⟨36, _⟩ => ⟨S2000000x4, .f32⟩
  | .hbm, ⟨37, _⟩ => ⟨S1x4, .f32⟩
  | .hbm, ⟨38, _⟩ => ⟨S2000000x4, .f32⟩
  | .hbm, ⟨39, _⟩ => ⟨S2000000x4, .f32⟩
  | .hbm, ⟨40, _⟩ => ⟨S2000000x4, .f32⟩
  | .hbm, ⟨41, _⟩ => ⟨S2000000x4, .f32⟩
  | .hbm, ⟨42, _⟩ => ⟨S1x4, .f32⟩
  | .hbm, ⟨43, _⟩ => ⟨S2000000x4, .f32⟩
  | .hbm, ⟨44, _⟩ => ⟨S2000000x4, .f32⟩
  | .hbm, ⟨45, _⟩ => ⟨S2000000x4, .f32⟩
  | .hbm, ⟨46, _⟩ => ⟨S2000000x4, .f32⟩
  | .hbm, ⟨47, _⟩ => ⟨S_, .f32⟩
  | .hbm, ⟨48, _⟩ => ⟨S2000000, .f32⟩
  | .hbm, ⟨49, _⟩ => ⟨S2000000x1, .f32⟩
  | .hbm, ⟨50, _⟩ => ⟨S10x4, .f32⟩
  | .hbm, ⟨51, _⟩ => ⟨S_, .f32⟩
  | .hbm, ⟨52, _⟩ => ⟨S10, .f32⟩
  | .hbm, ⟨53, _⟩ => ⟨S1x10, .f32⟩
  | .hbm, ⟨54, _⟩ => ⟨S2000000x10, .f32⟩
  | .hbm, ⟨55, _⟩ => ⟨S2000000x10, .f32⟩
  | .hbm, ⟨56, _⟩ => ⟨S2000000x10, .f32⟩
  | .hbm, ⟨57, _⟩ => ⟨S4x10, .f32⟩
  | .hbm, ⟨58, _⟩ => ⟨S2000000x10, .f32⟩
  | .hbm, ⟨59, _⟩ => ⟨S_, .f32⟩
  | .hbm, ⟨60, _⟩ => ⟨S2000000x10, .f32⟩
  | .hbm, ⟨61, _⟩ => ⟨S2000000x10, .f32⟩
  | .hbm, ⟨62, _⟩ => ⟨S2000000x10, .f32⟩
  | .hbm, ⟨63, _⟩ => ⟨S_, .f32⟩
  | .hbm, ⟨64, _⟩ => ⟨S2000000x10, .f32⟩
  | .hbm, ⟨65, _⟩ => ⟨S2000000x10, .f32⟩
  | .hbm, ⟨66, _⟩ => ⟨S2000000x10, .f32⟩
  | .hbm, ⟨67, _⟩ => ⟨S2000000x14, .f32⟩
  | .hbm, ⟨68, _⟩ => ⟨S2000000x1, .f32⟩
  | .hbm, ⟨69, _⟩ => ⟨S1x1, .f32⟩
  | .hbm, ⟨70, _⟩ => ⟨S2000000x1, .f32⟩
  | .hbm, ⟨71, _⟩ => ⟨S2000000x1, .f32⟩
  | .hbm, ⟨72, _⟩ => ⟨S2000000x1, .f32⟩
  | .hbm, ⟨73, _⟩ => ⟨S2000000x1, .f32⟩
  | .hbm, ⟨74, _⟩ => ⟨S_, .f32⟩
  | .hbm, ⟨75, _⟩ => ⟨S2000000x1, .f32⟩
  | .hbm, ⟨76, _⟩ => ⟨S2000000x1, .f32⟩
  | .hbm, ⟨77, _⟩ => ⟨S_, .f32⟩
  | .hbm, ⟨78, _⟩ => ⟨S2000000x1, .f32⟩
  | .hbm, ⟨79, _⟩ => ⟨S2000000x1, .f32⟩
  | _, _ => ⟨S2000000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_0 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_1 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_2 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_3 : Ref sig .tc := ⟨.hbm, 74, rfl⟩
abbrev main_v54 : Ref sig .tc := ⟨.hbm, 75, rfl⟩
abbrev main_v55 : Ref sig .tc := ⟨.hbm, 76, rfl⟩
abbrev main_cst_4 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S2000000x16_0_1 : S1x16.BroadcastsInDim S2000000x16 (![0, 1] : Fin 2 → Fin S2000000x16.rank)
  bcast_S12_S1x12_1 : S12.BroadcastsInDim S1x12 (![1] : Fin 1 → Fin S1x12.rank)
  bcast_S1x12_S2000000x12_0_1 : S1x12.BroadcastsInDim S2000000x12 (![0, 1] : Fin 2 → Fin S2000000x12.rank)
  bcast_S8_S1x8_1 : S8.BroadcastsInDim S1x8 (![1] : Fin 1 → Fin S1x8.rank)
  bcast_S1x8_S2000000x8_0_1 : S1x8.BroadcastsInDim S2000000x8 (![0, 1] : Fin 2 → Fin S2000000x8.rank)
  bcast_S4_S1x4_1 : S4.BroadcastsInDim S1x4 (![1] : Fin 1 → Fin S1x4.rank)
  bcast_S1x4_S2000000x4_0_1 : S1x4.BroadcastsInDim S2000000x4 (![0, 1] : Fin 2 → Fin S2000000x4.rank)
  reducesTo_S2000000x4_S2000000_d1 : S2000000x4.ReducesTo [1] S2000000
  h_S_ : 0 < S_.numel
  bcast_S2000000_S2000000x1_0 : S2000000.BroadcastsInDim S2000000x1 (![0] : Fin 1 → Fin S2000000x1.rank)
  reducesTo_S10x4_S10_d1 : S10x4.ReducesTo [1] S10
  bcast_S10_S1x10_1 : S10.BroadcastsInDim S1x10 (![1] : Fin 1 → Fin S1x10.rank)
  bcast_S2000000x1_S2000000x10_0_1 : S2000000x1.BroadcastsInDim S2000000x10 (![0, 1] : Fin 2 → Fin S2000000x10.rank)
  bcast_S1x10_S2000000x10_0_1 : S1x10.BroadcastsInDim S2000000x10 (![0, 1] : Fin 2 → Fin S2000000x10.rank)
  transposes_S10x4_S4x10_1_0 : S10x4.Transposes [1, 0] S4x10
  bcast_S_S2000000x10 : S_.BroadcastsInDim S2000000x10 (![] : Fin 0 → Fin S2000000x10.rank)
  concatenates_S2000000x4_S2000000x10_S2000000x14_d1 : Shape.Concatenates [S2000000x4, S2000000x10] S2000000x14 1
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  bcast_S_S2000000x1 : S_.BroadcastsInDim S2000000x1 (![] : Fin 0 → Fin S2000000x1.rank)
  dot_S2000000x8_S8x16_S2000000x16_1_0_0_1_n_n_wf : DotDims.WF S2000000x8 S8x16 S2000000x16 [1] [0] [0] [1] [] []
  dot_S2000000x16_S16x16_S2000000x16_1_0_0_1_n_n_wf : DotDims.WF S2000000x16 S16x16 S2000000x16 [1] [0] [0] [1] [] []
  dot_S2000000x16_S16x12_S2000000x12_1_0_0_1_n_n_wf : DotDims.WF S2000000x16 S16x12 S2000000x12 [1] [0] [0] [1] [] []
  dot_S2000000x12_S12x8_S2000000x8_1_0_0_1_n_n_wf : DotDims.WF S2000000x12 S12x8 S2000000x8 [1] [0] [0] [1] [] []
  dot_S2000000x8_S8x4_S2000000x4_1_0_0_1_n_n_wf : DotDims.WF S2000000x8 S8x4 S2000000x4 [1] [0] [0] [1] [] []
  dot_S2000000x4_S4x4_S2000000x4_1_0_0_1_n_n_wf : DotDims.WF S2000000x4 S4x4 S2000000x4 [1] [0] [0] [1] [] []
  dot_S2000000x4_S4x10_S2000000x10_1_0_0_1_n_n_wf : DotDims.WF S2000000x4 S4x10 S2000000x10 [1] [0] [0] [1] [] []
  dot_S2000000x14_S14x1_S2000000x1_1_0_0_1_n_n_wf : DotDims.WF S2000000x14 S14x1 S2000000x1 [1] [0] [0] [1] [] []

variable [Facts₀]

def dot_S2000000x8_S8x16_S2000000x16_1_0_0_1_n_n : DotDims S2000000x8 S8x16 S2000000x16 where
  lhsContracting := [1]
  rhsContracting := [0]
  lhsNonContracting := [0]
  rhsNonContracting := [1]
  lhsBatch := []
  rhsBatch := []
  wf := dot_S2000000x8_S8x16_S2000000x16_1_0_0_1_n_n_wf
def dot_S2000000x16_S16x16_S2000000x16_1_0_0_1_n_n : DotDims S2000000x16 S16x16 S2000000x16 where
  lhsContracting := [1]
  rhsContracting := [0]
  lhsNonContracting := [0]
  rhsNonContracting := [1]
  lhsBatch := []
  rhsBatch := []
  wf := dot_S2000000x16_S16x16_S2000000x16_1_0_0_1_n_n_wf
def dot_S2000000x16_S16x12_S2000000x12_1_0_0_1_n_n : DotDims S2000000x16 S16x12 S2000000x12 where
  lhsContracting := [1]
  rhsContracting := [0]
  lhsNonContracting := [0]
  rhsNonContracting := [1]
  lhsBatch := []
  rhsBatch := []
  wf := dot_S2000000x16_S16x12_S2000000x12_1_0_0_1_n_n_wf
def dot_S2000000x12_S12x8_S2000000x8_1_0_0_1_n_n : DotDims S2000000x12 S12x8 S2000000x8 where
  lhsContracting := [1]
  rhsContracting := [0]
  lhsNonContracting := [0]
  rhsNonContracting := [1]
  lhsBatch := []
  rhsBatch := []
  wf := dot_S2000000x12_S12x8_S2000000x8_1_0_0_1_n_n_wf
def dot_S2000000x8_S8x4_S2000000x4_1_0_0_1_n_n : DotDims S2000000x8 S8x4 S2000000x4 where
  lhsContracting := [1]
  rhsContracting := [0]
  lhsNonContracting := [0]
  rhsNonContracting := [1]
  lhsBatch := []
  rhsBatch := []
  wf := dot_S2000000x8_S8x4_S2000000x4_1_0_0_1_n_n_wf
def dot_S2000000x4_S4x4_S2000000x4_1_0_0_1_n_n : DotDims S2000000x4 S4x4 S2000000x4 where
  lhsContracting := [1]
  rhsContracting := [0]
  lhsNonContracting := [0]
  rhsNonContracting := [1]
  lhsBatch := []
  rhsBatch := []
  wf := dot_S2000000x4_S4x4_S2000000x4_1_0_0_1_n_n_wf
def dot_S2000000x4_S4x10_S2000000x10_1_0_0_1_n_n : DotDims S2000000x4 S4x10 S2000000x10 where
  lhsContracting := [1]
  rhsContracting := [0]
  lhsNonContracting := [0]
  rhsNonContracting := [1]
  lhsBatch := []
  rhsBatch := []
  wf := dot_S2000000x4_S4x10_S2000000x10_1_0_0_1_n_n_wf
def dot_S2000000x14_S14x1_S2000000x1_1_0_0_1_n_n : DotDims S2000000x14 S14x1 S2000000x1 where
  lhsContracting := [1]
  rhsContracting := [0]
  lhsNonContracting := [0]
  rhsNonContracting := [1]
  lhsBatch := []
  rhsBatch := []
  wf := dot_S2000000x14_S14x1_S2000000x1_1_0_0_1_n_n_wf

class Facts : Prop extends Facts₀ where

variable [Facts]
-- ==== Proof.LibDenseRows.lean ====
/-
  Rows through dense layers, at the exact (extended-real) reading of the float operations.

  A block of `M` rows with `K` entries each, multiplied by a `K × N` matrix into a zero accumulator, has at row `p`,
  column `j` the sum over `k` of the row's entries times the matrix's column (`matmul_plain_zero_apply`); adding a
  bias row and taking the hyperbolic tangent gives one dense layer (`denseRow`, `dense_apply`), a function of the ONE row
  `p` of the block: this is what lets a product of tall blocks be compared with the product of the whole array, row by
  row. Also here: the keep-dims forms of a column (a vector of length `a` as an `a × 1` matrix, and that column repeated
  along `b` columns), a sum over a row of a matrix as the lane reduction and the host's reduction give it, and a sum over
  `a + b` terms split into its first `a` and last `b`.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

open scoped BigOperators

namespace Cert.DenseRows

open Idealize.ShloMosaic Idealize.ShloMosaic.ValueIdx

/-- One dense layer on one row: `tanh (x · W + b)`, entry `j`. -/
def denseRow {K N : Nat} (W : Fin K → Fin N → EReal) (b : Fin N → EReal) (x : Fin K → EReal) : Fin N → EReal :=
  fun j => Ideal.tanh ((∑ k : Fin K, x k * W k j) + b j)

/-- The entries of a matrix as a function of row and column. -/
abbrev mat {K N : Nat} (w : (⟨2, ![K, N]⟩ : Shape).Idx → EReal) : Fin K → Fin N → EReal := fun k j => w (ix2 k j)
/-- The entries of a one-row matrix as a function of the column. -/
abbrev row1 {N : Nat} (b : (⟨2, ![1, N]⟩ : Shape).Idx → EReal) : Fin N → EReal := fun j => b (ix2 (0 : Fin 1) j)
/-- Row `p` of a matrix. -/
abbrev rowOf {M K : Nat} (x : (⟨2, ![M, K]⟩ : Shape).Idx → EReal) (p : Fin M) : Fin K → EReal := fun k => x (ix2 p k)

/-- A product of an `m × k` by a `k × n` matrix into the zero accumulator, read at row `a`, column `b`: the sum over
    the contracted coordinate of the products of the entries. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  have h1 := Ideal.matmul_constant_zero_apply (DotDims.plain m k n) prec A B (ix2 a b)
  have h2 := StackMember.dotGeneral_plain_apply prec A B a b
  have h3 : Host.dotGeneral (DotDims.plain m k n) prec A B (ix2 a b)
      = ∑ q : (DotDims.plain m k n).contr.Idx, A ((DotDims.plain m k n).lhsIdx (ix2 a b) q) * B ((DotDims.plain m k n).rhsIdx (ix2 a b) q) := by
    show FloatOps.dotGeneral _ prec _ A B (ix2 a b) = _
    exact Ideal.dotGeneral_apply _ _ _ _ _ _
  exact h1.trans (h3.symm.trans h2)

/-- ONE DENSE LAYER of a block of rows, as a kernel writes it — both operands narrowed (the identity on exact values),
    multiplied into a zero accumulator, the bias row repeated down the rows and added, then `tanh` — read at row `p`,
    column `j`, is `denseRow` of row `p` alone. -/
theorem dense_apply {M K N : Nat} (D : DotDims ⟨2, ![M, K]⟩ ⟨2, ![K, N]⟩ ⟨2, ![M, N]⟩) (hD : D = DotDims.plain M K N)
    (x : FVec Ideal ⟨2, ![M, K]⟩ .f32) (w : FVec Ideal ⟨2, ![K, N]⟩ .f32) (b : FVec Ideal ⟨2, ![1, N]⟩ .f32)
    (hx : FTy.bits .bf16 < FTy.bits .f32) (hsc : (⟨2, ![1, N]⟩ : Shape).ShapeCasts ⟨2, ![1, N]⟩)
    (hbc : (⟨2, ![1, N]⟩ : Shape).Broadcasts ⟨2, ![M, N]⟩) (p : Fin M) (j : Fin N) :
    tanh (addf (matmul D none (truncf .bf16 x hx) (truncf .bf16 w hx) (constant ⟨2, ![M, N]⟩ .f32 0x00000000#32))
        (broadcastTo ⟨2, ![M, N]⟩ (shapeCast ⟨2, ![1, N]⟩ b hsc) hbc)) (ix2 p j)
      = denseRow (mat w) (row1 b) (rowOf x p) j := by
  subst hD
  show Ideal.tanh (matmul (DotDims.plain M K N) none (truncf .bf16 x hx) (truncf .bf16 w hx) (constant ⟨2, ![M, N]⟩ .f32 0x00000000#32) (ix2 p j)
      + broadcastTo ⟨2, ![M, N]⟩ (shapeCast ⟨2, ![1, N]⟩ b hsc) hbc (ix2 p j)) = _
  rw [matmul_plain_zero_apply, broadcastTo_1b_ab_apply, shapeCast_self]
  rfl

/-- A vector of length `a` cast to an `a × 1` column reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column repeated along `b` columns reads, at `(p, c)`, the column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of a matrix's rows over its columns, as the vector unit's lane reduction onto a neutral accumulator gives it:
    at row `p` the sum of that row's entries. -/
theorem rowSum_lane_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src ?_
  funext ax; apply Fin.ext
  match ax with
  | ⟨0, _⟩ => rfl
  | ⟨1, _⟩ => rfl

/-- The sum of a matrix's rows over its columns as the host's reduction gives it: at row `p` the initial value plus the sum
    of that row's entries. -/
theorem rowSum_host_apply {a b : ℕ} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) := by
  simp only [Host.reduceAdd, Ideal.hostReduceAdd_def]
  rw [Ideal.hostReduceAdd_single h' h]
  refine congrArg (_ + ·) (Finset.sum_congr rfl fun k _ => congrArg x ?_)
  funext ax; apply Fin.ext
  match ax with
  | ⟨0, _⟩ => rfl
  | ⟨1, _⟩ => rfl

/-- The radial features of one row `h` against prototypes given by columns (`PT k j` is coordinate `k` of prototype `j`,
    `p2 j` its squared length): `exp (c₁ · ((|h|² + p2 j) − c₂ · ⟨h, P_j⟩))`, the two constants kept as their words
    (`c₁` is the word of `-1.0`, `c₂` the word of `2.0`). -/
def rbfRow {d n : Nat} (PT : Fin d → Fin n → EReal) (p2 : Fin n → EReal) (h : Fin d → EReal) : Fin n → EReal :=
  fun j => Ideal.exp (Ideal.ofBits .f32 0xBF800000#32
    * (((∑ k : Fin d, h k * h k) + p2 j) - Ideal.ofBits .f32 0x40000000#32 * ∑ k : Fin d, h k * PT k j))

/-- The logistic head on one row: the features `h` against `wx`, the radial features `f` against `wk`, a bias. -/
def headRow {d n : Nat} (wx : Fin d → EReal) (wk : Fin n → EReal) (bh : EReal) (h : Fin d → EReal) (f : Fin n → EReal) : EReal :=
  Ideal.logistic (((∑ k : Fin d, h k * wx k) + ∑ k : Fin n, f k * wk k) + bh)

/-- THE RADIAL FEATURES of a block of rows as a kernel writes them — the rows' squared lengths by a lane reduction kept as
    a column and repeated along the prototypes, the prototypes' squared lengths as a row repeated down the rows, the inner
    products by a product into a zero accumulator — read at row `p`, prototype `j`, are `rbfRow` of row `p` alone. -/
theorem rbf_apply {M d n : Nat} (D : DotDims ⟨2, ![M, d]⟩ ⟨2, ![d, n]⟩ ⟨2, ![M, n]⟩) (hD : D = DotDims.plain M d n)
    (h : FVec Ideal ⟨2, ![M, d]⟩ .f32) (pt : FVec Ideal ⟨2, ![d, n]⟩ .f32) (p2 : FVec Ideal ⟨2, ![1, n]⟩ .f32)
    (hx : FTy.bits .bf16 < FTy.bits .f32)
    (hred : (⟨2, ![M, d]⟩ : Shape).Reduces [1] ⟨1, ![M]⟩) (hφ : FKind.Formats .f32)
    (hacc : (0x00000000#32 : BitVec 32) = FKind.add.neutral .f32 hφ)
    (hsc1 : (⟨1, ![M]⟩ : Shape).ShapeCasts ⟨2, ![M, 1]⟩) (hbc1 : (⟨2, ![M, 1]⟩ : Shape).Broadcasts ⟨2, ![M, n]⟩)
    (hsc2 : (⟨2, ![1, n]⟩ : Shape).ShapeCasts ⟨2, ![1, n]⟩) (hbc2 : (⟨2, ![1, n]⟩ : Shape).Broadcasts ⟨2, ![M, n]⟩)
    (hsc3 : (⟨2, ![d, n]⟩ : Shape).ShapeCasts ⟨2, ![d, n]⟩) (p : Fin M) (j : Fin n) :
    exp (mulf (broadcast ⟨2, ![M, n]⟩ (Scalar.ofBits .f32 0xBF800000#32))
        (subf (addf (broadcastTo ⟨2, ![M, n]⟩ (shapeCast ⟨2, ![M, 1]⟩ (multiReduction .add [1] ⟨1, ![M]⟩ (mulf h h) 0x00000000#32 hred hφ hacc) hsc1) hbc1)
                    (broadcastTo ⟨2, ![M, n]⟩ (shapeCast ⟨2, ![1, n]⟩ p2 hsc2) hbc2))
              (mulf (broadcast ⟨2, ![M, n]⟩ (Scalar.ofBits .f32 0x40000000#32))
                    (matmul D none (truncf .bf16 h hx) (truncf .bf16 (shapeCast ⟨2, ![d, n]⟩ pt hsc3) hx) (constant ⟨2, ![M, n]⟩ .f32 0x00000000#32))))) (ix2 p j)
      = rbfRow (mat pt) (row1 p2) (rowOf h p) j := by
  subst hD
  show Ideal.exp (Ideal.ofBits .f32 0xBF800000#32
      * ((broadcastTo ⟨2, ![M, n]⟩ (shapeCast ⟨2, ![M, 1]⟩ (multiReduction .add [1] ⟨1, ![M]⟩ (mulf h h) 0x00000000#32 hred hφ hacc) hsc1) hbc1 (ix2 p j)
          + broadcastTo ⟨2, ![M, n]⟩ (shapeCast ⟨2, ![1, n]⟩ p2 hsc2) hbc2 (ix2 p j))
        - Ideal.ofBits .f32 0x40000000#32
          * matmul (DotDims.plain M d n) none (truncf .bf16 h hx) (truncf .bf16 (shapeCast ⟨2, ![d, n]⟩ pt hsc3) hx) (constant ⟨2, ![M, n]⟩ .f32 0x00000000#32) (ix2 p j))) = _
  rw [matmul_plain_zero_apply, broadcastTo_a1_ab_apply, shapeCast_a_a1_apply, rowSum_lane_apply, broadcastTo_1b_ab_apply,
    shapeCast_self, shapeCast_self]
  rfl

/-- THE HEAD of a block of rows as a kernel writes it — two products into zero accumulators added, the one bias repeated
    down the rows, the logistic function — read at row `p` (and the one column `q`) is `headRow` of row `p` alone. -/
theorem head_apply {M d n : Nat} (D1 : DotDims ⟨2, ![M, d]⟩ ⟨2, ![d, 1]⟩ ⟨2, ![M, 1]⟩) (hD1 : D1 = DotDims.plain M d 1)
    (D2 : DotDims ⟨2, ![M, n]⟩ ⟨2, ![n, 1]⟩ ⟨2, ![M, 1]⟩) (hD2 : D2 = DotDims.plain M n 1)
    (h : FVec Ideal ⟨2, ![M, d]⟩ .bf16) (f : FVec Ideal ⟨2, ![M, n]⟩ .f32) (wx : FVec Ideal ⟨2, ![d, 1]⟩ .bf16)
    (wk : FVec Ideal ⟨2, ![n, 1]⟩ .f32) (bh : FVec Ideal ⟨2, ![1, 1]⟩ .f32)
    (hx : FTy.bits .bf16 < FTy.bits .f32)
    (hsc : (⟨2, ![n, 1]⟩ : Shape).ShapeCasts ⟨2, ![n, 1]⟩) (hsc' : (⟨2, ![1, 1]⟩ : Shape).ShapeCasts ⟨2, ![1, 1]⟩)
    (hbc : (⟨2, ![1, 1]⟩ : Shape).Broadcasts ⟨2, ![M, 1]⟩) (p : Fin M) (q : Fin 1) :
    logistic (addf (addf (matmul D1 none h wx (constant ⟨2, ![M, 1]⟩ .f32 0x00000000#32))
          (matmul D2 none (truncf .bf16 f hx) (truncf .bf16 (shapeCast ⟨2, ![n, 1]⟩ wk hsc) hx) (constant ⟨2, ![M, 1]⟩ .f32 0x00000000#32)))
        (broadcastTo ⟨2, ![M, 1]⟩ (shapeCast ⟨2, ![1, 1]⟩ bh hsc') hbc)) (ix2 p q)
      = headRow (fun k => wx (ix2 k q)) (fun k => wk (ix2 k q)) (bh (ix2 (0 : Fin 1) q)) (rowOf h p) (rowOf f p) := by
  subst hD1 hD2
  show Ideal.logistic ((matmul (DotDims.plain M d 1) none h wx (constant ⟨2, ![M, 1]⟩ .f32 0x00000000#32) (ix2 p q)
        + matmul (DotDims.plain M n 1) none (truncf .bf16 f hx) (truncf .bf16 (shapeCast ⟨2, ![n, 1]⟩ wk hsc) hx) (constant ⟨2, ![M, 1]⟩ .f32 0x00000000#32) (ix2 p q))
      + broadcastTo ⟨2, ![M, 1]⟩ (shapeCast ⟨2, ![1, 1]⟩ bh hsc') hbc (ix2 p q)) = _
  rw [matmul_plain_zero_apply, matmul_plain_zero_apply, broadcastTo_1b_ab_apply, shapeCast_self, shapeCast_self]
  rfl

/-- The weights of the six dense layers, of the radial features and of the head, as plain functions of their coordinates. -/
structure Weights where
  W0 : Fin 8 → Fin 16 → EReal
  b0 : Fin 16 → EReal
  W1 : Fin 16 → Fin 16 → EReal
  b1 : Fin 16 → EReal
  W2 : Fin 16 → Fin 12 → EReal
  b2 : Fin 12 → EReal
  W3 : Fin 12 → Fin 8 → EReal
  b3 : Fin 8 → EReal
  W4 : Fin 8 → Fin 4 → EReal
  b4 : Fin 4 → EReal
  W5 : Fin 4 → Fin 4 → EReal
  b5 : Fin 4 → EReal
  PT : Fin 4 → Fin 10 → EReal
  p2 : Fin 10 → EReal
  wx : Fin 4 → EReal
  wk : Fin 10 → EReal
  bh : EReal

/-- The first four dense layers on one row of eight inputs. -/
def feat4 (θ : Weights) (x : Fin 8 → EReal) : Fin 8 → EReal :=
  denseRow θ.W3 θ.b3 (denseRow θ.W2 θ.b2 (denseRow θ.W1 θ.b1 (denseRow θ.W0 θ.b0 x)))
/-- All six dense layers on one row: the four features the head and the radial features read. -/
def feat (θ : Weights) (x : Fin 8 → EReal) : Fin 4 → EReal :=
  denseRow θ.W5 θ.b5 (denseRow θ.W4 θ.b4 (feat4 θ x))
/-- THE WHOLE NETWORK on one row: the logistic head of the features and of their radial features. -/
def outRow (θ : Weights) (x : Fin 8 → EReal) : EReal :=
  headRow θ.wx θ.wk θ.bh (feat θ x) (rbfRow θ.PT θ.p2 (feat θ x))

/-- A sum over `a + b` terms is the sum of the first `a` and of the last `b`. -/
theorem sum_split {M : Type*} [AddCommMonoid M] (a b : ℕ) (f : Fin (a + b) → M) :
    ∑ k : Fin (a + b), f k = (∑ k : Fin a, f (Fin.castAdd b k)) + ∑ k : Fin b, f (Fin.natAdd a k) :=
  Fin.sum_univ_add f

end Cert.DenseRows

end
-- ==== Proof.KernelRows.lean ====
/-
  The kernel's body on one block of rows, read at a row.

  The body loads a block of 4000 input rows and the (whole, small) weight arrays, runs six dense `tanh` layers, the radial
  features against ten prototypes and the logistic head, and stores a 4000 × 1 column. Every step acts on each row
  separately, so the stored column at row `p` is `outRow` of the weights and of row `p` of the input block alone
  (`out_block_apply`): the four payloads of the printed body, one after the other (`pay2_apply` … `pay1_apply`).
-/
import proofs.«132963_j65481071403991_1_alg».proof.Proof.Gen.KernelIdeal.Frame
import proofs.«132963_j65481071403991_1_alg».proof.Proof.LibDenseRows

noncomputable section

open scoped BigOperators

namespace Cert.KernelIdeal.Rows

open Cert.KernelIdeal Cert.KernelIdeal.Gen Idealize.ShloMosaic Idealize.ShloMosaic.ValueIdx Cert.DenseRows

theorem hz : (![0, 0] : Fin 2 → Nat) = fun _ => 0 := funext fun a => by fin_cases a <;> rfl

/-- The weights as the body finds them in its seventeen weight blocks (each block is its whole array): matrices by row
    and column, bias rows and the prototypes' squared lengths by column, the head's two columns by row. -/
def blockWeights (x1 : Vec Ideal S8x16 .f32) (x2 : Vec Ideal S1x16 .f32) (x3 : Vec Ideal S16x16 .f32) (x4 : Vec Ideal S1x16 .f32)
    (x5 : Vec Ideal S16x12 .f32) (x6 : Vec Ideal S1x12 .f32) (x7 : Vec Ideal S12x8 .f32) (x8 : Vec Ideal S1x8 .f32)
    (x9 : Vec Ideal S8x4 .f32) (x10 : Vec Ideal S1x4 .f32) (x11 : Vec Ideal S4x4 .f32) (x12 : Vec Ideal S1x4 .f32)
    (x13 : Vec Ideal S4x10 .f32) (x14 : Vec Ideal S1x10 .f32) (x15 : Vec Ideal S4x1 .f32) (x16 : Vec Ideal S10x1 .f32)
    (x17 : Vec Ideal S1x1 .f32) : Weights where
  W0 := mat x1
  b0 := row1 x2
  W1 := mat x3
  b1 := row1 x4
  W2 := mat x5
  b2 := row1 x6
  W3 := mat x7
  b3 := row1 x8
  W4 := mat x9
  b4 := row1 x10
  W5 := mat x11
  b5 := row1 x12
  PT := mat x13
  p2 := row1 x14
  wx := fun k => x15 (ix2 k (0 : Fin 1))
  wk := fun k => x16 (ix2 k (0 : Fin 1))
  bh := x17 (ix2 (0 : Fin 1) (0 : Fin 1))

/-- The first four layers (8 → 16 → 16 → 12 → 8) of the block, at row `p`, entry `j`. -/
theorem pay2_apply (x0 : Vec Ideal S4000x8 .f32) (x1 : Vec Ideal S8x16 .f32) (x2 : Vec Ideal S1x16 .f32) (x3 : Vec Ideal S16x16 .f32)
    (x4 : Vec Ideal S1x16 .f32) (x5 : Vec Ideal S16x12 .f32) (x6 : Vec Ideal S1x12 .f32) (x7 : Vec Ideal S12x8 .f32)
    (x8 : Vec Ideal S1x8 .f32) (p : Fin 4000) (j : Fin 8) :
    k0_pay2 x0 x1 x2 x3 x4 x5 x6 x7 x8 (ix2 p j)
      = denseRow (mat x7) (row1 x8) (denseRow (mat x5) (row1 x6) (denseRow (mat x3) (row1 x4) (denseRow (mat x1) (row1 x2) (rowOf x0 p)))) j := by
  unfold k0_pay2
  refine (dense_apply dot_S4000x12_S12x8_S4000x8_1_0_0_1_n_n rfl _ _ _ _ _ _ p j).trans
    (congrArg (fun f => denseRow (mat x7) (row1 x8) f j) (funext fun k3 => ?_))
  refine (dense_apply dot_S4000x16_S16x12_S4000x12_1_0_0_1_n_n rfl _ _ _ _ _ _ p k3).trans
    (congrArg (fun f => denseRow (mat x5) (row1 x6) f k3) (funext fun k2 => ?_))
  refine (dense_apply dot_S4000x16_S16x16_S4000x16_1_0_0_1_n_n rfl _ _ _ _ _ _ p k2).trans
    (congrArg (fun f => denseRow (mat x3) (row1 x4) f k2) (funext fun k1 => ?_))
  exact dense_apply dot_S4000x8_S8x16_S4000x16_1_0_0_1_n_n rfl _ _ _ _ _ _ p k1

/-- The last two layers (8 → 4 → 4), at row `p`, entry `j`, from the block the first four left. -/
theorem pay3_apply (v36 : FVec Ideal S4000x8 .f32) (x9 : Vec Ideal S8x4 .f32) (x10 : Vec Ideal S1x4 .f32) (x11 : Vec Ideal S4x4 .f32)
    (x12 : Vec Ideal S1x4 .f32) (p : Fin 4000) (j : Fin 4) :
    k0_pay3 v36 x9 x10 x11 x12 (ix2 p j)
      = denseRow (mat x11) (row1 x12) (denseRow (mat x9) (row1 x10) (rowOf v36 p)) j := by
  unfold k0_pay3
  refine (dense_apply dot_S4000x4_S4x4_S4000x4_1_0_0_1_n_n rfl _ _ _ _ _ _ p j).trans
    (congrArg (fun f => denseRow (mat x11) (row1 x12) f j) (funext fun k => ?_))
  exact dense_apply dot_S4000x8_S8x4_S4000x4_1_0_0_1_n_n rfl _ _ _ _ _ _ p k

/-- The radial features, at row `p`, prototype `j`, from the features' block. -/
theorem pay5_apply (v36 : FVec Ideal S4000x8 .f32) (x9 : Vec Ideal S8x4 .f32) (x10 : Vec Ideal S1x4 .f32) (x11 : Vec Ideal S4x4 .f32)
    (x12 : Vec Ideal S1x4 .f32) (x13 : Vec Ideal S4x10 .f32) (x14 : Vec Ideal S1x10 .f32) (p : Fin 4000) (j : Fin 10) :
    k0_pay5 v36 x9 x10 x11 x12 x13 x14 (ix2 p j)
      = rbfRow (mat x13) (row1 x14) (rowOf (k0_pay3 v36 x9 x10 x11 x12) p) j := by
  unfold k0_pay5 k0_pay4
  exact rbf_apply dot_S4000x4_S4x10_S4000x10_1_0_0_1_n_n rfl (k0_pay3 v36 x9 x10 x11 x12) x13 x14 _ _ _ _ _ _ _ _ _ p j

/-- The head, at row `p`, from the features' block, the radial features' block and the head's weights. -/
theorem pay1_apply (v55 : FVec Ideal S4000x4 .bf16) (v73 : FVec Ideal S4000x10 .f32) (v76 : FVec Ideal S4x1 .bf16)
    (x16 : Vec Ideal S10x1 .f32) (x17 : Vec Ideal S1x1 .f32) (p : Fin 4000) (q : Fin 1) :
    k0_pay1 v55 v73 v76 x16 x17 (ix2 p q)
      = headRow (fun k => v76 (ix2 k q)) (fun k => x16 (ix2 k q)) (x17 (ix2 (0 : Fin 1) q)) (rowOf v55 p) (rowOf v73 p) := by
  unfold k0_pay1
  exact head_apply dot_S4000x4_S4x1_S4000x1_1_0_0_1_n_n rfl dot_S4000x10_S10x1_S4000x1_1_0_0_1_n_n rfl v55 v73 v76 x16 x17 _ _ _ _ p q

/-- The head's first column as loaded: narrowing and a cast to the same shape change nothing. -/
theorem pay6_apply (x15 : Vec Ideal S4x1 .f32) (k : Fin 4) (q : Fin 1) : k0_pay6 x15 (ix2 k q) = x15 (ix2 k q) := by
  unfold k0_pay6
  show shapeCast S4x1 x15 _ (ix2 k q) = _
  rw [shapeCast_self]

/-- WHAT THE BODY STORES, at row `p` of its 4000 × 1 output block: the whole network on row `p` of the input block. -/
theorem out_block_apply (x0 : Vec Ideal S4000x8 .f32) (x1 : Vec Ideal S8x16 .f32) (x2 : Vec Ideal S1x16 .f32) (x3 : Vec Ideal S16x16 .f32)
    (x4 : Vec Ideal S1x16 .f32) (x5 : Vec Ideal S16x12 .f32) (x6 : Vec Ideal S1x12 .f32) (x7 : Vec Ideal S12x8 .f32)
    (x8 : Vec Ideal S1x8 .f32) (x9 : Vec Ideal S8x4 .f32) (x10 : Vec Ideal S1x4 .f32) (x11 : Vec Ideal S4x4 .f32)
    (x12 : Vec Ideal S1x4 .f32) (x13 : Vec Ideal S4x10 .f32) (x14 : Vec Ideal S1x10 .f32) (x15 : Vec Ideal S4x1 .f32)
    (x16 : Vec Ideal S10x1 .f32) (x17 : Vec Ideal S1x1 .f32) (p : Fin 4000) (q : Fin 1) :
    out0_18 x0 x1 x2 x3 x4 x5 x6 x7 x8 x9 x10 x11 x12 x13 x14 x15 x16 x17 (ix2 p q)
      = outRow (blockWeights x1 x2 x3 x4 x5 x6 x7 x8 x9 x10 x11 x12 x13 x14 x15 x16 x17) (rowOf x0 p) := by
  obtain rfl : q = 0 := Subsingleton.elim _ _
  unfold out0_18
  rw [View.canon_unit_zero hz]
  simp only [View.ld_unit_zero (S := S4000x8) hz,
    View.ld_unit_zero (S := S8x16) hz,
    View.ld_unit_zero (S := S1x16) hz,
    View.ld_unit_zero (S := S16x16) hz,
    View.ld_unit_zero (S := S16x12) hz,
    View.ld_unit_zero (S := S1x12) hz,
    View.ld_unit_zero (S := S12x8) hz,
    View.ld_unit_zero (S := S1x8) hz,
    View.ld_unit_zero (S := S8x4) hz,
    View.ld_unit_zero (S := S1x4) hz,
    View.ld_unit_zero (S := S4x4) hz,
    View.ld_unit_zero (S := S4x10) hz,
    View.ld_unit_zero (S := S1x10) hz,
    View.ld_unit_zero (S := S4x1) hz,
    View.ld_unit_zero (S := S10x1) hz,
    View.ld_unit_zero (S := S1x1) hz]
  have hf : ∀ k : Fin 4, k0_pay3 (k0_pay2 x0 x1 x2 x3 x4 x5 x6 x7 x8) x9 x10 x11 x12 (ix2 p k)
      = feat (blockWeights x1 x2 x3 x4 x5 x6 x7 x8 x9 x10 x11 x12 x13 x14 x15 x16 x17) (rowOf x0 p) k := fun k =>
    (pay3_apply _ x9 x10 x11 x12 p k).trans
      (congrArg (fun f => denseRow (mat x11) (row1 x12) (denseRow (mat x9) (row1 x10) f) k)
        (funext fun i => pay2_apply x0 x1 x2 x3 x4 x5 x6 x7 x8 p i))
  refine (pay1_apply _ _ _ x16 x17 p 0).trans ?_
  unfold outRow headRow
  have e1 : rowOf (k0_pay4 (k0_pay2 x0 x1 x2 x3 x4 x5 x6 x7 x8) x9 x10 x11 x12) p
      = feat (blockWeights x1 x2 x3 x4 x5 x6 x7 x8 x9 x10 x11 x12 x13 x14 x15 x16 x17) (rowOf x0 p) := funext hf
  have e2 : rowOf (k0_pay5 (k0_pay2 x0 x1 x2 x3 x4 x5 x6 x7 x8) x9 x10 x11 x12 x13 x14) p
      = rbfRow (mat x13) (row1 x14) (feat (blockWeights x1 x2 x3 x4 x5 x6 x7 x8 x9 x10 x11 x12 x13 x14 x15 x16 x17) (rowOf x0 p)) :=
    funext fun j => (pay5_apply _ x9 x10 x11 x12 x13 x14 p j).trans
      (congrArg (fun f => rbfRow (mat x13) (row1 x14) f j) (funext hf))
  have e3 : (fun k : Fin 4 => k0_pay6 x15 (ix2 k (0 : Fin 1))) = fun k => x15 (ix2 k (0 : Fin 1)) :=
    funext fun k => pay6_apply x15 k 0
  rw [e1, e2, e3]
  rfl

end Cert.KernelIdeal.Rows

end
-- ==== Proof.Spec.lean ====
/-
  The network as ONE function of its sixteen argument arrays.

  `weightsOf` reads the weights off the arrays as they are given: the six weight matrices by row and column, the six bias
  vectors by entry, the prototypes transposed (`PT k j` is coordinate `k` of prototype `j`) with their squared lengths
  (the initial value `0.0` of the host's sum, kept as its word, plus the sum of squares), the head's column split after its
  fourth entry, and the head's bias. `network` is then the result array: at row `r` (and the one column) the whole network
  on row `r` of the input array. Both programs are shown to end with this array.
-/
import proofs.«132963_j65481071403991_1_alg».proof.Proof.LibDenseRows

noncomputable section

open scoped BigOperators

namespace Cert.DenseRows

open Idealize.ShloMosaic Idealize.ShloMosaic.ValueIdx

/-- The weights read off the argument arrays. -/
def weightsOf (a1 : (⟨2, ![8, 16]⟩ : Shape).Idx → EReal) (a2 : (⟨1, ![16]⟩ : Shape).Idx → EReal)
    (a3 : (⟨2, ![16, 16]⟩ : Shape).Idx → EReal) (a4 : (⟨1, ![16]⟩ : Shape).Idx → EReal)
    (a5 : (⟨2, ![16, 12]⟩ : Shape).Idx → EReal) (a6 : (⟨1, ![12]⟩ : Shape).Idx → EReal)
    (a7 : (⟨2, ![12, 8]⟩ : Shape).Idx → EReal) (a8 : (⟨1, ![8]⟩ : Shape).Idx → EReal)
    (a9 : (⟨2, ![8, 4]⟩ : Shape).Idx → EReal) (a10 : (⟨1, ![4]⟩ : Shape).Idx → EReal)
    (a11 : (⟨2, ![4, 4]⟩ : Shape).Idx → EReal) (a12 : (⟨1, ![4]⟩ : Shape).Idx → EReal)
    (a13 : (⟨2, ![10, 4]⟩ : Shape).Idx → EReal) (a14 : (⟨2, ![14, 1]⟩ : Shape).Idx → EReal)
    (a15 : (⟨1, ![1]⟩ : Shape).Idx → EReal) : Weights where
  W0 := mat a1
  b0 := fun j => a2 (ix1 j)
  W1 := mat a3
  b1 := fun j => a4 (ix1 j)
  W2 := mat a5
  b2 := fun j => a6 (ix1 j)
  W3 := mat a7
  b3 := fun j => a8 (ix1 j)
  W4 := mat a9
  b4 := fun j => a10 (ix1 j)
  W5 := mat a11
  b5 := fun j => a12 (ix1 j)
  PT := fun k j => a13 (ix2 j k)
  p2 := fun j => Ideal.ofBits .f32 0x00000000#32 + ∑ k : Fin 4, a13 (ix2 j k) * a13 (ix2 j k)
  wx := fun k => a14 (ix2 (⟨k.val, by omega⟩ : Fin 14) (0 : Fin 1))
  wk := fun k => a14 (ix2 (⟨4 + k.val, by omega⟩ : Fin 14) (0 : Fin 1))
  bh := a15 (ix1 (0 : Fin 1))

/-- THE RESULT ARRAY: at row `r` the whole network on row `r` of the input array. -/
def network (a0 : (⟨2, ![2000000, 8]⟩ : Shape).Idx → EReal) (a1 : (⟨2, ![8, 16]⟩ : Shape).Idx → EReal) (a2 : (⟨1, ![16]⟩ : Shape).Idx → EReal)
    (a3 : (⟨2, ![16, 16]⟩ : Shape).Idx → EReal) (a4 : (⟨1, ![16]⟩ : Shape).Idx → EReal)
    (a5 : (⟨2, ![16, 12]⟩ : Shape).Idx → EReal) (a6 : (⟨1, ![12]⟩ : Shape).Idx → EReal)
    (a7 : (⟨2, ![12, 8]⟩ : Shape).Idx → EReal) (a8 : (⟨1, ![8]⟩ : Shape).Idx → EReal)
    (a9 : (⟨2, ![8, 4]⟩ : Shape).Idx → EReal) (a10 : (⟨1, ![4]⟩ : Shape).Idx → EReal)
    (a11 : (⟨2, ![4, 4]⟩ : Shape).Idx → EReal) (a12 : (⟨1, ![4]⟩ : Shape).Idx → EReal)
    (a13 : (⟨2, ![10, 4]⟩ : Shape).Idx → EReal) (a14 : (⟨2, ![14, 1]⟩ : Shape).Idx → EReal)
    (a15 : (⟨1, ![1]⟩ : Shape).Idx → EReal) : (⟨2, ![2000000, 1]⟩ : Shape).Idx → EReal :=
  fun i => outRow (weightsOf a1 a2 a3 a4 a5 a6 a7 a8 a9 a10 a11 a12 a13 a14 a15) (rowOf a0 (i 0))

end Cert.DenseRows

end
-- ==== Proof.KernelArray.lean ====
/-
  From the blocks to the whole array: the kernel's result array is `network` of the argument arrays.

  The grid has 500 points; point `t` is given rows `4000 t … 4000 t + 3999` of the input array as its input block and
  every weight array whole, and writes back rows `4000 t … 4000 t + 3999` of the result column. The weight arrays the
  region finds are the arguments themselves or what the host operations before the region made of them (bias vectors as
  one-row matrices, the prototypes transposed, their squared lengths, the head's column cut after its fourth entry): read
  at an index, the seventeen weight blocks are `weightsOf` of the arguments (`blockWeights_eq`). So what point `t` writes
  back is block `t` of `network` (`flushed_eq`), row `r` lies in the block of point `r / 4000` (`cover`), and the array
  ends as `network` (`final`, `run`).
-/
import proofs.«132963_j65481071403991_1_alg».proof.Proof.Gen.KernelIdeal.Value
import proofs.«132963_j65481071403991_1_alg».proof.Proof.KernelRows
import proofs.«132963_j65481071403991_1_alg».proof.Proof.Spec
import Idealize.ShloMosaic.Lib.StableHlo.Run

noncomputable section

open scoped BigOperators

namespace Cert.KernelIdeal.Rows

open Cert.KernelIdeal Cert.KernelIdeal.Gen Idealize.ShloMosaic Idealize.ShloMosaic.TcCoe Idealize.SL.Sem
open Idealize.ShloMosaic.ValueIdx Idealize.ShloMosaic.StableHlo Cert.DenseRows
open Idealize.ShloMosaic.Pipeline (Dat)

variable (m : (ℓ : Loc nD τ sig) → Buf (Elt Ideal) ℓ) (ρ : Dev nD → PrngReg)

/-! ## The weight arrays as the region finds them -/

theorem V_v0 (c : Dev nD) : (V m c main_v0 : S1x16.Idx → EReal) = shapeCast S1x16 (m ((c : Thread nD τ).loc main_arg2)) shapeCasts_S16_S1x16 := by
  dsimp only [Gen.V, Gen.hostOps0]
  after_results
  rfl
theorem V_v1 (c : Dev nD) : (V m c main_v1 : S1x16.Idx → EReal) = shapeCast S1x16 (m ((c : Thread nD τ).loc main_arg4)) shapeCasts_S16_S1x16 := by
  dsimp only [Gen.V, Gen.hostOps0]
  after_results
  rfl
theorem V_v2 (c : Dev nD) : (V m c main_v2 : S1x12.Idx → EReal) = shapeCast S1x12 (m ((c : Thread nD τ).loc main_arg6)) shapeCasts_S12_S1x12 := by
  dsimp only [Gen.V, Gen.hostOps0]
  after_results
  rfl
theorem V_v3 (c : Dev nD) : (V m c main_v3 : S1x8.Idx → EReal) = shapeCast S1x8 (m ((c : Thread nD τ).loc main_arg8)) shapeCasts_S8_S1x8 := by
  dsimp only [Gen.V, Gen.hostOps0]
  after_results
  rfl
theorem V_v4 (c : Dev nD) : (V m c main_v4 : S1x4.Idx → EReal) = shapeCast S1x4 (m ((c : Thread nD τ).loc main_arg10)) shapeCasts_S4_S1x4 := by
  dsimp only [Gen.V, Gen.hostOps0]
  after_results
  rfl
theorem V_v5 (c : Dev nD) : (V m c main_v5 : S1x4.Idx → EReal) = shapeCast S1x4 (m ((c : Thread nD τ).loc main_arg12)) shapeCasts_S4_S1x4 := by
  dsimp only [Gen.V, Gen.hostOps0]
  after_results
  rfl
theorem V_v6 (c : Dev nD) : (V m c main_v6 : S1x1.Idx → EReal) = shapeCast S1x1 (m ((c : Thread nD τ).loc main_arg15)) shapeCasts_S1_S1x1 := by
  dsimp only [Gen.V, Gen.hostOps0]
  after_results
  rfl
theorem V_v7 (c : Dev nD) : (V m c main_v7 : S4x10.Idx → EReal) = transpose S4x10 [1, 0] (m ((c : Thread nD τ).loc main_arg13)) transposes_S10x4_S4x10_1_0 := by
  dsimp only [Gen.V, Gen.hostOps0]
  after_results
theorem V_v10 (c : Dev nD) : (V m c main_v10 : S1x10.Idx → EReal) = shapeCast S1x10 (Host.reduceAdd (mulf (m ((c : Thread nD τ).loc main_arg13)) (m ((c : Thread nD τ).loc main_arg13))) (constant (F := Ideal) S_ .f32 0x00000000#32) reducesTo_S10x4_S10_d1 h_S_) shapeCasts_S10_S1x10 := by
  dsimp only [Gen.V, Gen.hostOps0]
  after_results
  rfl
theorem V_v11 (c : Dev nD) : (V m c main_v11 : S4x1.Idx → EReal) = extractStridedSlice S4x1 ![0, 0] (m ((c : Thread nD τ).loc main_arg14)) slices_S14x1_S4x1_0_0 := by
  dsimp only [Gen.V, Gen.hostOps0]
  after_results
theorem V_v12 (c : Dev nD) : (V m c main_v12 : S10x1.Idx → EReal) = extractStridedSlice S10x1 ![4, 0] (m ((c : Thread nD τ).loc main_arg14)) slices_S14x1_S10x1_4_0 := by
  dsimp only [Gen.V, Gen.hostOps0]
  after_results

/-! ## Each window's block at a point -/

/-- The input window's block at point `t` is rows `4000 t … 4000 t + 3999` of the input array. -/
theorem iblk0_apply (c : Dev nD) (t : Fin cfg0.N) (p : Fin 4000) (k : Fin 8) (r : Fin 2000000) (hr : r.val = 4000 * t.val + p.val) :
    (iblk m c 0 t : Vec Ideal S4000x8 .f32) (ix2 p k) = ((m ((c : Thread nD τ).loc main_arg0)) : S2000000x8.Idx → EReal) (ix2 r k) := by
  have hi : win0_0.index t ⟨0, by decide⟩ = t.val :=
    (by decide +kernel : ∀ t : Fin grid0.N, win0_0.index t ⟨0, by decide⟩ = t.val) t
  unfold iblk
  rw [View.read_apply]
  show V m c main_arg0 _ = _
  rw [V_main_arg0 m c]
  refine congrArg _ (funext fun a => Fin.ext ?_)
  match a with
  | ⟨0, _⟩ => show win0_0.index t ⟨0, by decide⟩ * 4000 + 1 * p.val = r.val; rw [hi, hr]; omega
  | ⟨1, _⟩ => show 0 * 8 + 1 * k.val = k.val; omega

theorem iblk1 (c : Dev nD) (t : Fin cfg0.N) :
    (iblk m c 1 t : Vec Ideal S8x16 .f32) = (m ((c : Thread nD τ).loc main_arg1)) := by
  funext y
  unfold iblk
  rw [View.read_apply]
  show V m c main_arg1 _ = _
  rw [V_main_arg1 m c]
  refine congrArg _ (funext fun a => Fin.ext ?_)
  match a with
  | ⟨0, _⟩ => show 0 * 8 + 1 * (y 0).val = (y 0).val; omega
  | ⟨1, _⟩ => show 0 * 16 + 1 * (y 1).val = (y 1).val; omega
theorem iblk2 (c : Dev nD) (t : Fin cfg0.N) :
    (iblk m c 2 t : Vec Ideal S1x16 .f32) = shapeCast S1x16 (m ((c : Thread nD τ).loc main_arg2)) shapeCasts_S16_S1x16 := by
  funext y
  unfold iblk
  rw [View.read_apply]
  show V m c main_v0 _ = _
  rw [V_v0 m c]
  refine congrArg _ (funext fun a => Fin.ext ?_)
  match a with
  | ⟨0, _⟩ => show 0 * 1 + 1 * (y 0).val = (y 0).val; omega
  | ⟨1, _⟩ => show 0 * 16 + 1 * (y 1).val = (y 1).val; omega
theorem iblk3 (c : Dev nD) (t : Fin cfg0.N) :
    (iblk m c 3 t : Vec Ideal S16x16 .f32) = (m ((c : Thread nD τ).loc main_arg3)) := by
  funext y
  unfold iblk
  rw [View.read_apply]
  show V m c main_arg3 _ = _
  rw [V_main_arg3 m c]
  refine congrArg _ (funext fun a => Fin.ext ?_)
  match a with
  | ⟨0, _⟩ => show 0 * 16 + 1 * (y 0).val = (y 0).val; omega
  | ⟨1, _⟩ => show 0 * 16 + 1 * (y 1).val = (y 1).val; omega
theorem iblk4 (c : Dev nD) (t : Fin cfg0.N) :
    (iblk m c 4 t : Vec Ideal S1x16 .f32) = shapeCast S1x16 (m ((c : Thread nD τ).loc main_arg4)) shapeCasts_S16_S1x16 := by
  funext y
  unfold iblk
  rw [View.read_apply]
  show V m c main_v1 _ = _
  rw [V_v1 m c]
  refine congrArg _ (funext fun a => Fin.ext ?_)
  match a with
  | ⟨0, _⟩ => show 0 * 1 + 1 * (y 0).val = (y 0).val; omega
  | ⟨1, _⟩ => show 0 * 16 + 1 * (y 1).val = (y 1).val; omega
theorem iblk5 (c : Dev nD) (t : Fin cfg0.N) :
    (iblk m c 5 t : Vec Ideal S16x12 .f32) = (m ((c : Thread nD τ).loc main_arg5)) := by
  funext y
  unfold iblk
  rw [View.read_apply]
  show V m c main_arg5 _ = _
  rw [V_main_arg5 m c]
  refine congrArg _ (funext fun a => Fin.ext ?_)
  match a with
  | ⟨0, _⟩ => show 0 * 16 + 1 * (y 0).val = (y 0).val; omega
  | ⟨1, _⟩ => show 0 * 12 + 1 * (y 1).val = (y 1).val; omega
theorem iblk6 (c : Dev nD) (t : Fin cfg0.N) :
    (iblk m c 6 t : Vec Ideal S1x12 .f32) = shapeCast S1x12 (m ((c : Thread nD τ).loc main_arg6)) shapeCasts_S12_S1x12 := by
  funext y
  unfold iblk
  rw [View.read_apply]
  show V m c main_v2 _ = _
  rw [V_v2 m c]
  refine congrArg _ (funext fun a => Fin.ext ?_)
  match a with
  | ⟨0, _⟩ => show 0 * 1 + 1 * (y 0).val = (y 0).val; omega
  | ⟨1, _⟩ => show 0 * 12 + 1 * (y 1).val = (y 1).val; omega
theorem iblk7 (c : Dev nD) (t : Fin cfg0.N) :
    (iblk m c 7 t : Vec Ideal S12x8 .f32) = (m ((c : Thread nD τ).loc main_arg7)) := by
  funext y
  unfold iblk
  rw [View.read_apply]
  show V m c main_arg7 _ = _
  rw [V_main_arg7 m c]
  refine congrArg _ (funext fun a => Fin.ext ?_)
  match a with
  | ⟨0, _⟩ => show 0 * 12 + 1 * (y 0).val = (y 0).val; omega
  | ⟨1, _⟩ => show 0 * 8 + 1 * (y 1).val = (y 1).val; omega
theorem iblk8 (c : Dev nD) (t : Fin cfg0.N) :
    (iblk m c 8 t : Vec Ideal S1x8 .f32) = shapeCast S1x8 (m ((c : Thread nD τ).loc main_arg8)) shapeCasts_S8_S1x8 := by
  funext y
  unfold iblk
  rw [View.read_apply]
  show V m c main_v3 _ = _
  rw [V_v3 m c]
  refine congrArg _ (funext fun a => Fin.ext ?_)
  match a with
  | ⟨0, _⟩ => show 0 * 1 + 1 * (y 0).val = (y 0).val; omega
  | ⟨1, _⟩ => show 0 * 8 + 1 * (y 1).val = (y 1).val; omega
theorem iblk9 (c : Dev nD) (t : Fin cfg0.N) :
    (iblk m c 9 t : Vec Ideal S8x4 .f32) = (m ((c : Thread nD τ).loc main_arg9)) := by
  funext y
  unfold iblk
  rw [View.read_apply]
  show V m c main_arg9 _ = _
  rw [V_main_arg9 m c]
  refine congrArg _ (funext fun a => Fin.ext ?_)
  match a with
  | ⟨0, _⟩ => show 0 * 8 + 1 * (y 0).val = (y 0).val; omega
  | ⟨1, _⟩ => show 0 * 4 + 1 * (y 1).val = (y 1).val; omega
theorem iblk10 (c : Dev nD) (t : Fin cfg0.N) :
    (iblk m c 10 t : Vec Ideal S1x4 .f32) = shapeCast S1x4 (m ((c : Thread nD τ).loc main_arg10)) shapeCasts_S4_S1x4 := by
  funext y
  unfold iblk
  rw [View.read_apply]
  show V m c main_v4 _ = _
  rw [V_v4 m c]
  refine congrArg _ (funext fun a => Fin.ext ?_)
  match a with
  | ⟨0, _⟩ => show 0 * 1 + 1 * (y 0).val = (y 0).val; omega
  | ⟨1, _⟩ => show 0 * 4 + 1 * (y 1).val = (y 1).val; omega
theorem iblk11 (c : Dev nD) (t : Fin cfg0.N) :
    (iblk m c 11 t : Vec Ideal S4x4 .f32) = (m ((c : Thread nD τ).loc main_arg11)) := by
  funext y
  unfold iblk
  rw [View.read_apply]
  show V m c main_arg11 _ = _
  rw [V_main_arg11 m c]
  refine congrArg _ (funext fun a => Fin.ext ?_)
  match a with
  | ⟨0, _⟩ => show 0 * 4 + 1 * (y 0).val = (y 0).val; omega
  | ⟨1, _⟩ => show 0 * 4 + 1 * (y 1).val = (y 1).val; omega
theorem iblk12 (c : Dev nD) (t : Fin cfg0.N) :
    (iblk m c 12 t : Vec Ideal S1x4 .f32) = shapeCast S1x4 (m ((c : Thread nD τ).loc main_arg12)) shapeCasts_S4_S1x4 := by
  funext y
  unfold iblk
  rw [View.read_apply]
  show V m c main_v5 _ = _
  rw [V_v5 m c]
  refine congrArg _ (funext fun a => Fin.ext ?_)
  match a with
  | ⟨0, _⟩ => show 0 * 1 + 1 * (y 0).val = (y 0).val; omega
  | ⟨1, _⟩ => show 0 * 4 + 1 * (y 1).val = (y 1).val; omega
theorem iblk13 (c : Dev nD) (t : Fin cfg0.N) :
    (iblk m c 13 t : Vec Ideal S4x10 .f32) = transpose S4x10 [1, 0] (m ((c : Thread nD τ).loc main_arg13)) transposes_S10x4_S4x10_1_0 := by
  funext y
  unfold iblk
  rw [View.read_apply]
  show V m c main_v7 _ = _
  rw [V_v7 m c]
  refine congrArg _ (funext fun a => Fin.ext ?_)
  match a with
  | ⟨0, _⟩ => show 0 * 4 + 1 * (y 0).val = (y 0).val; omega
  | ⟨1, _⟩ => show 0 * 10 + 1 * (y 1).val = (y 1).val; omega
theorem iblk14 (c : Dev nD) (t : Fin cfg0.N) :
    (iblk m c 14 t : Vec Ideal S1x10 .f32) = shapeCast S1x10 (Host.reduceAdd (mulf (m ((c : Thread nD τ).loc main_arg13)) (m ((c : Thread nD τ).loc main_arg13))) (constant (F := Ideal) S_ .f32 0x00000000#32) reducesTo_S10x4_S10_d1 h_S_) shapeCasts_S10_S1x10 := by
  funext y
  unfold iblk
  rw [View.read_apply]
  show V m c main_v10 _ = _
  rw [V_v10 m c]
  refine congrArg _ (funext fun a => Fin.ext ?_)
  match a with
  | ⟨0, _⟩ => show 0 * 1 + 1 * (y 0).val = (y 0).val; omega
  | ⟨1, _⟩ => show 0 * 10 + 1 * (y 1).val = (y 1).val; omega
theorem iblk15 (c : Dev nD) (t : Fin cfg0.N) :
    (iblk m c 15 t : Vec Ideal S4x1 .f32) = extractStridedSlice S4x1 ![0, 0] (m ((c : Thread nD τ).loc main_arg14)) slices_S14x1_S4x1_0_0 := by
  funext y
  unfold iblk
  rw [View.read_apply]
  show V m c main_v11 _ = _
  rw [V_v11 m c]
  refine congrArg _ (funext fun a => Fin.ext ?_)
  match a with
  | ⟨0, _⟩ => show 0 * 4 + 1 * (y 0).val = (y 0).val; omega
  | ⟨1, _⟩ => show 0 * 1 + 1 * (y 1).val = (y 1).val; omega
theorem iblk16 (c : Dev nD) (t : Fin cfg0.N) :
    (iblk m c 16 t : Vec Ideal S10x1 .f32) = extractStridedSlice S10x1 ![4, 0] (m ((c : Thread nD τ).loc main_arg14)) slices_S14x1_S10x1_4_0 := by
  funext y
  unfold iblk
  rw [View.read_apply]
  show V m c main_v12 _ = _
  rw [V_v12 m c]
  refine congrArg _ (funext fun a => Fin.ext ?_)
  match a with
  | ⟨0, _⟩ => show 0 * 10 + 1 * (y 0).val = (y 0).val; omega
  | ⟨1, _⟩ => show 0 * 1 + 1 * (y 1).val = (y 1).val; omega
theorem iblk17 (c : Dev nD) (t : Fin cfg0.N) :
    (iblk m c 17 t : Vec Ideal S1x1 .f32) = shapeCast S1x1 (m ((c : Thread nD τ).loc main_arg15)) shapeCasts_S1_S1x1 := by
  funext y
  unfold iblk
  rw [View.read_apply]
  show V m c main_v6 _ = _
  rw [V_v6 m c]
  refine congrArg _ (funext fun a => Fin.ext ?_)
  match a with
  | ⟨0, _⟩ => show 0 * 1 + 1 * (y 0).val = (y 0).val; omega
  | ⟨1, _⟩ => show 0 * 1 + 1 * (y 1).val = (y 1).val; omega

/-! ## The weights the body finds are the weights of the arguments -/

theorem blockWeights_eq (c : Dev nD) (t : Fin cfg0.N) :
    blockWeights (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
      = weightsOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  rw [iblk1 m c t, iblk2 m c t, iblk3 m c t, iblk4 m c t, iblk5 m c t, iblk6 m c t, iblk7 m c t, iblk8 m c t, iblk9 m c t, iblk10 m c t, iblk11 m c t, iblk12 m c t, iblk13 m c t, iblk14 m c t, iblk15 m c t, iblk16 m c t, iblk17 m c t]
  unfold blockWeights weightsOf
  simp only [Weights.mk.injEq]
  refine ⟨trivial, ?_, trivial, ?_, trivial, ?_, trivial, ?_, trivial, ?_, trivial, ?_, ?_, ?_, ?_, ?_, ?_⟩
  · exact funext fun j => shapeCast_a_1a_apply _ _ 0 j
  · exact funext fun j => shapeCast_a_1a_apply _ _ 0 j
  · exact funext fun j => shapeCast_a_1a_apply _ _ 0 j
  · exact funext fun j => shapeCast_a_1a_apply _ _ 0 j
  · exact funext fun j => shapeCast_a_1a_apply _ _ 0 j
  · exact funext fun j => shapeCast_a_1a_apply _ _ 0 j
  · exact funext fun k => funext fun j => transpose_ix2_apply _ _ k j
  · refine funext fun j => ?_
    refine (shapeCast_a_1a_apply _ _ 0 j).trans ?_
    refine (rowSum_host_apply _ _ reducesTo_S10x4_S10_d1 (by decide) h_S_ j).trans ?_
    rfl
  · exact funext fun k => slice2_axis0_apply 0 _ _ k 0 ⟨k.val, by omega⟩ (by simp)
  · exact funext fun k => slice2_axis0_apply 4 _ _ k 0 ⟨4 + k.val, by omega⟩ rfl
  · exact shapeCast_a_1a_apply _ _ 0 0

/-! ## What a point writes back, the cover, the array -/

/-- The result array the kernel ends with, as a function of the arguments as launched. -/
abbrev result (c : Dev nD) : Buf (Elt Ideal) ((c : Thread nD τ).loc main_v13) :=
  network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))

/-- What the body leaves at an index `y` of point `t`'s output block is `result` at the place of `y` in the array: row
    `4000 t + y₀`. -/
theorem out_at (c : Dev nD) (t : Fin cfg0.N) (y : S4000x1.Idx) :
    out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) y
      = result m c (((cfg0.win 18).blk t).view.emb y) := by
  obtain ⟨p, q, rfl⟩ : ∃ (p : Fin 4000) (q : Fin 1), y = ix2 p q := ⟨y 0, y 1, eq_ix2 y⟩
  have hi : win0_18.index t ⟨0, by decide⟩ = t.val := Value.idx_pt18 t
  have hN : cfg0.N = 500 := N_0
  have ht : t.val < 500 := by have := t.isLt; omega
  have hp : p.val < 4000 := p.isLt
  rw [out_block_apply, blockWeights_eq m c t]
  show outRow (weightsOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (rowOf (iblk m c 0 t) p)
    = outRow (weightsOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (rowOf (m ((c : Thread nD τ).loc main_arg0)) ((((cfg0.win 18).blk t).view.emb (ix2 p q)) 0))
  refine congrArg _ (funext fun k => ?_)
  refine iblk0_apply m c t p k _ ?_
  show win0_18.index t ⟨0, by decide⟩ * 4000 + 1 * p.val = 4000 * t.val + p.val
  rw [hi]; omega

/-- WHAT POINT `t` WRITES BACK is block `t` of `result`. -/
theorem flushed_eq (c : Dev nD) (t : Fin cfg0.N) :
    (dats m 0 c).flushed 18 t = ((cfg0.win 18).blk t).view.read (Elt Ideal) (result m c) := by
  rw [Value.flushed18]
  funext y
  rw [View.read_apply]
  exact out_at m c t y

/-- An index of the result array is in point `t`'s block iff each coordinate is in the block's range on its axis. -/
theorem mem_blk (t : Fin cfg0.N) (i : S2000000x1.Idx) :
    i ∈ ((cfg0.win 18).blk t).view.set ↔ ∀ a : Fin 2, win0_18.index t a * S4000x1.size a ≤ (i a).val ∧ (i a).val < win0_18.index t a * S4000x1.size a + S4000x1.size a := by
  show i ∈ ((View.whole main_v13).slice (win0_18.rect t)).set ↔ _
  rw [View.set_slice_whole, Rect.mem_set_unit]
  exact Iff.rfl

/-- Row `r` of the result lies in the block of point `r / 4000`, which writes back. -/
theorem cover (i : S2000000x1.Idx) :
    ∃ t : Fin cfg0.N, (cfg0.win 18).flush t = true ∧ i ∈ ((cfg0.win 18).blk t).view.set := by
  have h0 : (i 0).val < 2000000 := (i 0).isLt
  have h1 : (i 1).val < 1 := (i 1).isLt
  have hN : cfg0.N = 500 := N_0
  let t : Fin cfg0.N := ⟨(i 0).val / 4000, by rw [hN]; omega⟩
  have hi : win0_18.index t ⟨0, by decide⟩ = (i 0).val / 4000 := Value.idx_pt18 t
  refine ⟨t, flush0_18 t, ?_⟩
  rw [mem_blk]
  intro a
  match a with
  | ⟨0, _⟩ => show win0_18.index t ⟨0, by decide⟩ * 4000 ≤ (i 0).val ∧ (i 0).val < win0_18.index t ⟨0, by decide⟩ * 4000 + 4000; rw [hi]; omega
  | ⟨1, _⟩ => show 0 * 1 ≤ (i 1).val ∧ (i 1).val < 0 * 1 + 1; omega

/-- THE ARRAY after the run is `result`. -/
theorem final (c : Dev nD) : (dats m 0 c).arrAt 18 cfg0.N = result m c :=
  (dats m 0 c).arrAt_eq_of_cover 18 (result m c) (fun t _ => flushed_eq m c t) cover

/-- The kernel's run, read: the result array at `network` of the arguments, the arguments unchanged. -/
theorem run : θ_run defs (onTc (τ := τ) (main (F := Ideal))) ⟨m, fun _ => 0, ρ⟩ fun r => ∀ c : Dev nD,
      r.2.mem ((c : Thread nD τ).loc main_v13) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨(h c).1.trans (final m c), (h c).2⟩) (Value.run_blocks m ρ)

end Cert.KernelIdeal.Rows

end
-- ==== Proof.RefRows.lean ====
/-
  The reference's result array is `network` of its argument arrays.

  The reference computes the same network on the whole input array at once: six matrix products with a bias row added
  and `tanh`, the squared distances to the prototypes expanded as `|h|² + |P_j|² − 2 ⟨h, P_j⟩`, `exp` of their negative,
  the features and the radial features set side by side and multiplied by the head's one column of fourteen weights, the
  bias, and the logistic function written out as `1 / (1 + exp (−z))`. Read at row `r`, every stage depends on row `r` of
  the stage before (`layer1` … `layer6`, `radial`); the sum over the fourteen joined entries is the sum over the four features
  plus the sum over the ten radial features (`head_sum`); the host's sum of squares starts from the word of `0.0`, which is
  the real `0`, and the word of `1.0` is the real `1` (`one_eq`), so the last three operations are the logistic function.
-/
import proofs.«132963_j65481071403991_1_alg».proof.Proof.Gen.ReferenceIdeal.Read
import proofs.«132963_j65481071403991_1_alg».proof.Proof.Spec

noncomputable section

open scoped BigOperators

namespace Cert.ReferenceIdeal.Rows

open Cert.ReferenceIdeal Cert.ReferenceIdeal.Read Idealize.ShloMosaic Idealize.ShloMosaic.TcCoe Idealize.SL.Sem
open Idealize.ShloMosaic.ValueIdx Cert.DenseRows

/-- Two index functions of rank two agree: coordinate by coordinate. -/
local macro "idx2" : tactic => `(tactic| (funext a; match a with | ⟨0, _⟩ => rfl | ⟨1, _⟩ => rfl))
/-- Two index functions of rank one agree. -/
local macro "idx1" : tactic => `(tactic| (funext a; match a with | ⟨0, _⟩ => rfl))

variable (x0 : (⟨S2000000x8, .f32⟩ : BufTy).Contents (Elt Ideal)) (x1 : (⟨S8x16, .f32⟩ : BufTy).Contents (Elt Ideal)) (x2 : (⟨S16, .f32⟩ : BufTy).Contents (Elt Ideal)) (x3 : (⟨S16x16, .f32⟩ : BufTy).Contents (Elt Ideal)) (x4 : (⟨S16, .f32⟩ : BufTy).Contents (Elt Ideal))
  (x5 : (⟨S16x12, .f32⟩ : BufTy).Contents (Elt Ideal)) (x6 : (⟨S12, .f32⟩ : BufTy).Contents (Elt Ideal)) (x7 : (⟨S12x8, .f32⟩ : BufTy).Contents (Elt Ideal)) (x8 : (⟨S8, .f32⟩ : BufTy).Contents (Elt Ideal)) (x9 : (⟨S8x4, .f32⟩ : BufTy).Contents (Elt Ideal)) (x10 : (⟨S4, .f32⟩ : BufTy).Contents (Elt Ideal))
  (x11 : (⟨S4x4, .f32⟩ : BufTy).Contents (Elt Ideal)) (x12 : (⟨S4, .f32⟩ : BufTy).Contents (Elt Ideal)) (x13 : (⟨S10x4, .f32⟩ : BufTy).Contents (Elt Ideal)) (x14 : (⟨S14x1, .f32⟩ : BufTy).Contents (Elt Ideal)) (x15 : (⟨S1, .f32⟩ : BufTy).Contents (Elt Ideal))

/-- layer1 -/
theorem layer1 (r : Fin 2000000) (j : Fin 16) :
    val_main_v4 (F := Ideal) x0 x1 x2 (ix2 r j) = denseRow (mat x1) (fun j => x2 (ix1 j)) (rowOf x0 r) j := by
  have el : ∀ k : Fin 8, lidx_main_v0 (ix2 r j) k = ix2 r k := fun k => by idx2
  have er : ∀ k : Fin 8, ridx_main_v0 (ix2 r j) k = ix2 k j := fun k => by idx2
  have e2 : idx_main_v1 (idx_main_v2 (ix2 r j)) = ix1 j := by idx1
  show Ideal.tanh (val_main_v0 (F := Ideal) x0 x1 (ix2 r j) + val_main_v2 (F := Ideal) x2 (ix2 r j)) = _
  rw [val_main_v0_apply, val_main_v2_apply, val_main_v1_apply, e2]
  simp only [el, er]
  rfl
/-- layer2 -/
theorem layer2 (r : Fin 2000000) (j : Fin 16) :
    val_main_v9 (F := Ideal) x0 x1 x2 x3 x4 (ix2 r j) = denseRow (mat x3) (fun j => x4 (ix1 j)) (denseRow (mat x1) (fun j => x2 (ix1 j)) (rowOf x0 r)) j := by
  have el : ∀ k : Fin 16, lidx_main_v5 (ix2 r j) k = ix2 r k := fun k => by idx2
  have er : ∀ k : Fin 16, ridx_main_v5 (ix2 r j) k = ix2 k j := fun k => by idx2
  have e2 : idx_main_v6 (idx_main_v7 (ix2 r j)) = ix1 j := by idx1
  show Ideal.tanh (val_main_v5 (F := Ideal) x0 x1 x2 x3 (ix2 r j) + val_main_v7 (F := Ideal) x4 (ix2 r j)) = _
  rw [val_main_v5_apply, val_main_v7_apply, val_main_v6_apply, e2]
  simp only [el, er, layer1 x0 x1 x2]
  rfl
/-- layer3 -/
theorem layer3 (r : Fin 2000000) (j : Fin 12) :
    val_main_v14 (F := Ideal) x0 x1 x2 x3 x4 x5 x6 (ix2 r j) = denseRow (mat x5) (fun j => x6 (ix1 j)) (denseRow (mat x3) (fun j => x4 (ix1 j)) (denseRow (mat x1) (fun j => x2 (ix1 j)) (rowOf x0 r))) j := by
  have el : ∀ k : Fin 16, lidx_main_v10 (ix2 r j) k = ix2 r k := fun k => by idx2
  have er : ∀ k : Fin 16, ridx_main_v10 (ix2 r j) k = ix2 k j := fun k => by idx2
  have e2 : idx_main_v11 (idx_main_v12 (ix2 r j)) = ix1 j := by idx1
  show Ideal.tanh (val_main_v10 (F := Ideal) x0 x1 x2 x3 x4 x5 (ix2 r j) + val_main_v12 (F := Ideal) x6 (ix2 r j)) = _
  rw [val_main_v10_apply, val_main_v12_apply, val_main_v11_apply, e2]
  simp only [el, er, layer2 x0 x1 x2 x3 x4]
  rfl
/-- layer4 -/
theorem layer4 (r : Fin 2000000) (j : Fin 8) :
    val_main_v19 (F := Ideal) x0 x1 x2 x3 x4 x5 x6 x7 x8 (ix2 r j) = denseRow (mat x7) (fun j => x8 (ix1 j)) (denseRow (mat x5) (fun j => x6 (ix1 j)) (denseRow (mat x3) (fun j => x4 (ix1 j)) (denseRow (mat x1) (fun j => x2 (ix1 j)) (rowOf x0 r)))) j := by
  have el : ∀ k : Fin 12, lidx_main_v15 (ix2 r j) k = ix2 r k := fun k => by idx2
  have er : ∀ k : Fin 12, ridx_main_v15 (ix2 r j) k = ix2 k j := fun k => by idx2
  have e2 : idx_main_v16 (idx_main_v17 (ix2 r j)) = ix1 j := by idx1
  show Ideal.tanh (val_main_v15 (F := Ideal) x0 x1 x2 x3 x4 x5 x6 x7 (ix2 r j) + val_main_v17 (F := Ideal) x8 (ix2 r j)) = _
  rw [val_main_v15_apply, val_main_v17_apply, val_main_v16_apply, e2]
  simp only [el, er, layer3 x0 x1 x2 x3 x4 x5 x6]
  rfl
/-- layer5 -/
theorem layer5 (r : Fin 2000000) (j : Fin 4) :
    val_main_v24 (F := Ideal) x0 x1 x2 x3 x4 x5 x6 x7 x8 x9 x10 (ix2 r j) = denseRow (mat x9) (fun j => x10 (ix1 j)) (denseRow (mat x7) (fun j => x8 (ix1 j)) (denseRow (mat x5) (fun j => x6 (ix1 j)) (denseRow (mat x3) (fun j => x4 (ix1 j)) (denseRow (mat x1) (fun j => x2 (ix1 j)) (rowOf x0 r))))) j := by
  have el : ∀ k : Fin 8, lidx_main_v20 (ix2 r j) k = ix2 r k := fun k => by idx2
  have er : ∀ k : Fin 8, ridx_main_v20 (ix2 r j) k = ix2 k j := fun k => by idx2
  have e2 : idx_main_v21 (idx_main_v22 (ix2 r j)) = ix1 j := by idx1
  show Ideal.tanh (val_main_v20 (F := Ideal) x0 x1 x2 x3 x4 x5 x6 x7 x8 x9 (ix2 r j) + val_main_v22 (F := Ideal) x10 (ix2 r j)) = _
  rw [val_main_v20_apply, val_main_v22_apply, val_main_v21_apply, e2]
  simp only [el, er, layer4 x0 x1 x2 x3 x4 x5 x6 x7 x8]
  rfl
/-- layer6 -/
theorem layer6 (r : Fin 2000000) (j : Fin 4) :
    val_main_v29 (F := Ideal) x0 x1 x2 x3 x4 x5 x6 x7 x8 x9 x10 x11 x12 (ix2 r j) = denseRow (mat x11) (fun j => x12 (ix1 j)) (denseRow (mat x9) (fun j => x10 (ix1 j)) (denseRow (mat x7) (fun j => x8 (ix1 j)) (denseRow (mat x5) (fun j => x6 (ix1 j)) (denseRow (mat x3) (fun j => x4 (ix1 j)) (denseRow (mat x1) (fun j => x2 (ix1 j)) (rowOf x0 r)))))) j := by
  have el : ∀ k : Fin 4, lidx_main_v25 (ix2 r j) k = ix2 r k := fun k => by idx2
  have er : ∀ k : Fin 4, ridx_main_v25 (ix2 r j) k = ix2 k j := fun k => by idx2
  have e2 : idx_main_v26 (idx_main_v27 (ix2 r j)) = ix1 j := by idx1
  show Ideal.tanh (val_main_v25 (F := Ideal) x0 x1 x2 x3 x4 x5 x6 x7 x8 x9 x10 x11 (ix2 r j) + val_main_v27 (F := Ideal) x12 (ix2 r j)) = _
  rw [val_main_v25_apply, val_main_v27_apply, val_main_v26_apply, e2]
  simp only [el, er, layer5 x0 x1 x2 x3 x4 x5 x6 x7 x8 x9 x10]
  rfl

/-- The features of row `r`, all six layers: `feat` of the weights read off the arrays. -/
theorem features (r : Fin 2000000) (j : Fin 4) :
    val_main_v29 (F := Ideal) x0 x1 x2 x3 x4 x5 x6 x7 x8 x9 x10 x11 x12 (ix2 r j) = feat (weightsOf x1 x2 x3 x4 x5 x6 x7 x8 x9 x10 x11 x12 x13 x14 x15) (rowOf x0 r) j :=
  layer6 x0 x1 x2 x3 x4 x5 x6 x7 x8 x9 x10 x11 x12 r j

/-- The word of `1.0` is the real `1`. -/
theorem one_eq : Ideal.ofBits .f32 0x3F800000#32 = 1 := IdealRules.sign_bit.ideal_onePat .f32

/-- The radial features of row `r`: the host's sum of squares starts from the word of `0.0`, the real `0`. -/
theorem radial (r : Fin 2000000) (j : Fin 10) :
    val_main_v46 (F := Ideal) x0 x1 x2 x3 x4 x5 x6 x7 x8 x9 x10 x11 x12 x13 (ix2 r j)
      = rbfRow (fun k j => x13 (ix2 j k)) (fun j => Ideal.ofBits .f32 0x00000000#32 + ∑ k : Fin 4, x13 (ix2 j k) * x13 (ix2 j k))
          (feat (weightsOf x1 x2 x3 x4 x5 x6 x7 x8 x9 x10 x11 x12 x13 x14 x15) (rowOf x0 r)) j := by
  have e36 : idx_main_v32 (idx_main_v36 (ix2 r j)) = ix1 r := by idx1
  have e31 : ∀ k : Fin 4, idx_main_v31 (ix1 r) k = ix2 r k := fun k => by idx2
  have e37 : idx_main_v35 (idx_main_v37 (ix2 r j)) = ix1 j := by idx1
  have e34 : ∀ k : Fin 4, idx_main_v34 (ix1 j) k = ix2 j k := fun k => by idx2
  have el : ∀ k : Fin 4, lidx_main_v40 (ix2 r j) k = ix2 r k := fun k => by idx2
  have er : ∀ k : Fin 4, idx_main_v39 (ridx_main_v40 (ix2 r j) k) = ix2 j k := fun k => by idx2
  rw [val_main_v46_apply, val_main_v45_apply, val_main_v44_apply, val_main_cst_2_apply, val_main_v43_apply, val_main_v38_apply,
    val_main_v42_apply, val_main_v41_apply, val_main_cst_1_apply, val_main_v36_apply, val_main_v32_apply, e36, val_main_v31_apply,
    val_main_cst_apply, val_main_v37_apply, val_main_v35_apply, e37, val_main_v34_apply, val_main_cst_0_apply, val_main_v40_apply]
  simp only [e31, e34, el, val_main_v39_apply, er, val_main_v30_apply, val_main_v33_apply, features x0 x1 x2 x3 x4 x5 x6 x7 x8 x9 x10 x11 x12 x13 x14 x15]
  simp only [Ideal.hostUnary_exp_def, Ideal.mulf_def, Ideal.subf_def, Ideal.addf_def, Ideal.ofBits_def]
  rw [Ideal.ofBits_zero_f32, zero_add]
  rfl

/-- The joined array at row `r`: its first four entries are the features, -/
theorem joined_left (r : Fin 2000000) (k : Fin 4) :
    val_main_v47 (F := Ideal) x0 x1 x2 x3 x4 x5 x6 x7 x8 x9 x10 x11 x12 x13 (ix2 r (⟨k.val, by omega⟩ : Fin 14)) = val_main_v29 (F := Ideal) x0 x1 x2 x3 x4 x5 x6 x7 x8 x9 x10 x11 x12 (ix2 r k) := by
  unfold val_main_v47
  exact concatenate_pair_apply_left (t := S2000000x14) (s₁ := S2000000x4) (s₂ := S2000000x10) 1 _ _ _
    (ix2 r (⟨k.val, by omega⟩ : Fin 14)) rfl (ix2 r k) fun b => by
      match b with
      | ⟨0, _⟩ => rfl
      | ⟨1, _⟩ => rfl

/-- its last ten the radial features. -/
theorem joined_right (r : Fin 2000000) (k : Fin 10) :
    val_main_v47 (F := Ideal) x0 x1 x2 x3 x4 x5 x6 x7 x8 x9 x10 x11 x12 x13 (ix2 r (⟨4 + k.val, by omega⟩ : Fin 14)) = val_main_v46 (F := Ideal) x0 x1 x2 x3 x4 x5 x6 x7 x8 x9 x10 x11 x12 x13 (ix2 r k) := by
  unfold val_main_v47
  refine concatenate_pair_apply_right (t := S2000000x14) (s₁ := S2000000x4) (s₂ := S2000000x10) 1 _ _ _
    (ix2 r (⟨4 + k.val, by omega⟩ : Fin 14)) rfl rfl (ix2 r k) (fun b hb => ?_) ?_
  · match b with
    | ⟨0, _⟩ => rfl
    | ⟨1, _⟩ => exact absurd rfl hb
  · show k.val + 4 = 4 + k.val
    omega

/-- The head's sum over the fourteen joined entries: the four features against the first four weights plus the ten radial
    features against the last ten. -/
theorem head_sum (r : Fin 2000000) (q : Fin 1) :
    val_main_v48 (F := Ideal) x0 x1 x2 x3 x4 x5 x6 x7 x8 x9 x10 x11 x12 x13 x14 (ix2 r q)
      = (∑ k : Fin 4, val_main_v29 (F := Ideal) x0 x1 x2 x3 x4 x5 x6 x7 x8 x9 x10 x11 x12 (ix2 r k) * x14 (ix2 (⟨k.val, by omega⟩ : Fin 14) q))
        + ∑ k : Fin 10, val_main_v46 (F := Ideal) x0 x1 x2 x3 x4 x5 x6 x7 x8 x9 x10 x11 x12 x13 (ix2 r k) * x14 (ix2 (⟨4 + k.val, by omega⟩ : Fin 14) q) := by
  have el : ∀ k : Fin 14, lidx_main_v48 (ix2 r q) k = ix2 r k := fun k => by idx2
  have er : ∀ k : Fin 14, ridx_main_v48 (ix2 r q) k = ix2 k q := fun k => by idx2
  rw [val_main_v48_apply]
  simp only [el, er]
  refine (sum_split 4 10 fun k : Fin 14 => val_main_v47 (F := Ideal) x0 x1 x2 x3 x4 x5 x6 x7 x8 x9 x10 x11 x12 x13 (ix2 r k) * x14 (ix2 k q)).trans ?_
  refine congrArg₂ (· + ·) (Finset.sum_congr rfl fun k _ => ?_) (Finset.sum_congr rfl fun k _ => ?_)
  · exact congrArg (· * _) (joined_left x0 x1 x2 x3 x4 x5 x6 x7 x8 x9 x10 x11 x12 x13 r k)
  · exact congrArg (· * _) (joined_right x0 x1 x2 x3 x4 x5 x6 x7 x8 x9 x10 x11 x12 x13 r k)

/-- THE REFERENCE'S RESULT at row `r`: the whole network on row `r` of the input array. -/
theorem result_apply (r : Fin 2000000) (q : Fin 1) :
    val_main_v57 (F := Ideal) x0 x1 x2 x3 x4 x5 x6 x7 x8 x9 x10 x11 x12 x13 x14 x15 (ix2 r q) = outRow (weightsOf x1 x2 x3 x4 x5 x6 x7 x8 x9 x10 x11 x12 x13 x14 x15) (rowOf x0 r) := by
  obtain rfl : q = 0 := Subsingleton.elim _ _
  have e50 : idx_main_v49 (idx_main_v50 (ix2 r (0 : Fin 1))) = ix1 (0 : Fin 1) := by idx1
  rw [val_main_v57_apply, val_main_v56_apply, val_main_cst_4_apply, val_main_v55_apply, val_main_v54_apply, val_main_cst_3_apply,
    val_main_v53_apply, val_main_v52_apply, val_main_v51_apply, val_main_v50_apply, val_main_v49_apply, e50, head_sum]
  simp only [features x0 x1 x2 x3 x4 x5 x6 x7 x8 x9 x10 x11 x12 x13 x14 x15, radial x0 x1 x2 x3 x4 x5 x6 x7 x8 x9 x10 x11 x12 x13 x14 x15]
  simp only [Ideal.hostDivf_def, Ideal.hostUnary_exp_def, Ideal.hostNegf_def, Ideal.negf_def, Ideal.addf_def, Ideal.ofBits_def]
  rw [one_eq]
  rfl

/-- So the reference's result array is `network` of its arguments. -/
theorem result_eq : val_main_v57 (F := Ideal) x0 x1 x2 x3 x4 x5 x6 x7 x8 x9 x10 x11 x12 x13 x14 x15 = network x0 x1 x2 x3 x4 x5 x6 x7 x8 x9 x10 x11 x12 x13 x14 x15 := by
  funext i
  obtain ⟨r, q, rfl⟩ : ∃ (r : Fin 2000000) (q : Fin 1), i = ix2 r q := ⟨i 0, i 1, eq_ix2 i⟩
  exact result_apply x0 x1 x2 x3 x4 x5 x6 x7 x8 x9 x10 x11 x12 x13 x14 x15 r q

end Cert.ReferenceIdeal.Rows

end
-- ==== Proof.lean ====
/-
  A small network, row by row: the kernel against its reference, over the extended reals.

  Both programs take two million rows of eight numbers and, for each row, run six dense layers with `tanh`
  (8 → 16 → 16 → 12 → 8 → 4 → 4), take `exp (−d²)` of the squared distances from the four features to ten prototypes
  (with `d²` expanded as `|h|² + |P_j|² − 2 ⟨h, P_j⟩`), and feed the features and these ten numbers to a logistic head.
  The kernel does it on 500 blocks of 4000 rows, with the weights prepared by a few host operations and its products taken
  in a narrower format (the identity on exact values); the reference does it on the whole array, with the head's two groups
  of inputs joined into one vector of fourteen. Read exactly, each row's result depends on that row alone, so both
  result arrays are ONE function of the arguments, `network` (Proof/Spec.lean): the kernel's by reading its body at a row
  (Proof/KernelRows.lean) and its blocks as rows of the arrays (Proof/KernelArray.lean), the reference's by reading its
  operations at a row (Proof/RefRows.lean). The only algebra between the two is that a sum of fourteen terms is the sum of
  its first four and its last ten, that the host's sums start from `0`, and that `1 / (1 + exp (−z))` is the logistic
  function; none of it needs the inputs to be finite. The idealization rewrote nothing, so `preserves` is trivial.
-/
import proofs.«132963_j65481071403991_1_alg».proof.Defs
import proofs.«132963_j65481071403991_1_alg».proof.Proof.Gen.Kernel
import proofs.«132963_j65481071403991_1_alg».proof.Proof.Gen.Kernel.Frame
import proofs.«132963_j65481071403991_1_alg».proof.Proof.Gen.KernelIdeal
import proofs.«132963_j65481071403991_1_alg».proof.Proof.Gen.KernelIdeal.Frame
import proofs.«132963_j65481071403991_1_alg».proof.Proof.Gen.KernelIdeal.Value
import proofs.«132963_j65481071403991_1_alg».proof.Proof.Gen.ReferenceIdeal
import proofs.«132963_j65481071403991_1_alg».proof.Proof.Gen.ReferenceIdeal.Run
import proofs.«132963_j65481071403991_1_alg».proof.Proof.Gen.ReferenceIdeal.Read
import proofs.«132963_j65481071403991_1_alg».proof.Proof.Gen.Pre_finite_inputs
import proofs.«132963_j65481071403991_1_alg».proof.Proof.KernelArray
import proofs.«132963_j65481071403991_1_alg».proof.Proof.RefRows
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ
/-- So does its exact reading. -/
theorem frame_ki : Cert.frame_KernelIdeal := fun m ρ _ => Cert.KernelIdeal.Gen.frame m ρ
/-- The reference runs and leaves its arguments unchanged: its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel and its exact reading. -/
theorem preserves : Cert.preserves_Kernel_KernelIdeal := trivial

/-- Both result arrays are `network` of arguments that agree. -/
theorem algebraic : Cert.algebraic_KernelIdeal_ReferenceIdeal := by
  intro m ρ m' ρ' _ hagree
  refine ⟨fun c => Cert.KernelIdeal.Rows.result m c, Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15⟩ := hagree c
  rw [Cert.ReferenceIdeal.Read.val_main_v57_eq, Cert.ReferenceIdeal.Rows.result_eq, h0, h1, h2, h3, h4, h5, h6, h7, h8, h9, h10, h11, h12, h13, h14, h15]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
